-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1200000 : Shape := ⟨2, ![2, 1200000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x10 .f32) (main_arg12 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x1200000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x10 .f32) (main_arg12 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x1200000 : Shape := ⟨2, ![2, 1200000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S50000x1 : Shape := ⟨2, ![50000, 1]⟩
abbrev S5000x64 : Shape := ⟨2, ![5000, 64]⟩
abbrev S5000x1 : Shape := ⟨2, ![5000, 1]⟩
abbrev S1250000x64 : Shape := ⟨2, ![1250000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 90
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S2x1200000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S50000, .i32⟩
  | .hbm, ⟨14, _⟩ => ⟨S1x1200000, .i32⟩
  | .hbm, ⟨15, _⟩ => ⟨S1200000, .i32⟩
  | .hbm, ⟨16, _⟩ => ⟨S1250000, .i32⟩
  | .hbm, ⟨17, _⟩ => ⟨S1x1200000, .i32⟩
  | .hbm, ⟨18, _⟩ => ⟨S1200000, .i32⟩
  | .hbm, ⟨19, _⟩ => ⟨S1250000, .i32⟩
  | .hbm, ⟨20, _⟩ => ⟨S_, .f32⟩
  | .hbm, ⟨21, _⟩ => ⟨S1250000, .f32⟩
  | .hbm, ⟨22, _⟩ => ⟨S_, .f32⟩
  | .hbm, ⟨23, _⟩ => ⟨S50000, .f32⟩
  | .hbm, ⟨24, _⟩ => ⟨S1250000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000x64, .f32⟩
  | .hbm, ⟨45, _⟩ => ⟨S_, .f32⟩
  | .hbm, ⟨46, _⟩ => ⟨S50000x64, .f32⟩
  | .hbm, ⟨47, _⟩ => ⟨S1250000x1, .i32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S50000x64, .f32⟩
  | .hbm, ⟨61, _⟩ => ⟨S1250000x1, .i32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S1250000, .i32⟩
  | .hbm, ⟨66, _⟩ => ⟨S1250000, .i1⟩
  | .hbm, ⟨67, _⟩ => ⟨S_, .i32⟩
  | .hbm, ⟨68, _⟩ => ⟨S1250000, .i32⟩
  | .hbm, ⟨69, _⟩ => ⟨S1250000, .i32⟩
  | .hbm, ⟨70, _⟩ => ⟨S1250000, .i32⟩
  | .hbm, ⟨71, _⟩ => ⟨S1250000x1, .i32⟩
  | .hbm, ⟨72, _⟩ => ⟨S1250000x64, .f32⟩
  | .hbm, ⟨73, _⟩ => ⟨S_, .f32⟩
  | .hbm, ⟨74, _⟩ => ⟨S50000x64, .f32⟩
  | .hbm, ⟨75, _⟩ => ⟨S1250000x1, .i32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S512x64, .f32⟩
  | .hbm, ⟨80, _⟩ => ⟨S50000x1, .i32⟩
  | .hbm, ⟨81, _⟩ => ⟨S512x64, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S512, .f32⟩
  | .hbm, ⟨86, _⟩ => ⟨S50000x1, .i32⟩
  | .hbm, ⟨87, _⟩ => ⟨S512, .f32⟩
  | .hbm, ⟨88, _⟩ => ⟨S512x1, .f32⟩
  | .hbm, ⟨89, _⟩ => ⟨S512x10, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | .local _ .vmem, ⟨30, _⟩ => ⟨S512x64, .f32⟩
  | .local _ .vmem, ⟨31, _⟩ => ⟨S512x1, .f32⟩
  | .local _ .vmem, ⟨32, _⟩ => ⟨S64x64, .f32⟩
  | .local _ .vmem, ⟨33, _⟩ => ⟨S64, .f32⟩
  | .local _ .vmem, ⟨34, _⟩ => ⟨S64x10, .f32⟩
  | .local _ .vmem, ⟨35, _⟩ => ⟨S10, .f32⟩
  | .local _ .vmem, ⟨36, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S50000_S1250000_d0 : Shape.Concatenates [S1200000, S50000] S1250000 0
  slices_S2x1200000_S1x1200000_1_0 : S2x1200000.Slices ![1, 0] S1x1200000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S50000_S1250000x1_S1250000_n_0_0_1_wf : ScatterDims.WF S50000 S1250000x1 S1250000 [] [0] [0] 1
  dot_S5000x64_S64x64_S5000x64_1_0_0_1_n_n_wf : DotDims.WF S5000x64 S64x64 S5000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S10.size a ≤ S10.size a
  hwx4_5 : ∀ i : grid4.Coords, EltTy.bits .f32 = 32 ∨ (Rect.block (s := S10) S10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x10.size a ≤ S512x10.size a
  hwx4_6 : ∀ i : grid4.Coords, EltTy.bits .f32 = 32 ∨ (Rect.block (s := S512x10) S512x10.size (cc4_transform_6 i) (hinb4_6 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v52) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v57) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v58) S512x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1200000 : Shape := ⟨2, ![2, 1200000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 164
  | .vmem => 0
  | .smem => 0
  | _ => 0

abbrev hbmTy0_0 (i : Nat) : BufTy := match i % 128 with
  | 0 => ⟨S50000x64, .f32⟩
  | 1 => ⟨S2x1200000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x10, .f32⟩
  | 12 => ⟨S10, .f32⟩
  | 13 => ⟨S50000, .i32⟩
  | 14 => ⟨S1x1200000, .i32⟩
  | 15 => ⟨S1200000, .i32⟩
  | 16 => ⟨S1250000, .i32⟩
  | 17 => ⟨S1x1200000, .i32⟩
  | 18 => ⟨S1200000, .i32⟩
  | 19 => ⟨S1250000, .i32⟩
  | 20 => ⟨S_, .f32⟩
  | 21 => ⟨S1250000, .f32⟩
  | 22 => ⟨S_, .f32⟩
  | 23 => ⟨S50000, .f32⟩
  | 24 => ⟨S1250000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1250000, .i32⟩
  | 36 => ⟨S1250000, .i1⟩
  | 37 => ⟨S_, .i32⟩
  | 38 => ⟨S1250000, .i32⟩
  | 39 => ⟨S1250000, .i32⟩
  | 40 => ⟨S1250000, .i32⟩
  | 41 => ⟨S1250000x1, .i32⟩
  | 42 => ⟨S1250000, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000, .f32⟩
  | 52 => ⟨S1250000, .f32⟩
  | 53 => ⟨S50000x64, .f32⟩
  | 54 => ⟨S_, .i32⟩
  | 55 => ⟨S1250000, .i32⟩
  | 56 => ⟨S1250000, .i1⟩
  | 57 => ⟨S_, .i32⟩
  | 58 => ⟨S1250000, .i32⟩
  | 59 => ⟨S1250000, .i32⟩
  | 60 => ⟨S1250000, .i32⟩
  | 61 => ⟨S1250000x1, .i32⟩
  | 62 => ⟨S1250000x64, .f32⟩
  | 63 => ⟨S1250000x1, .f32⟩
  | 64 => ⟨S1250000x64, .f32⟩
  | 65 => ⟨S1250000x64, .f32⟩
  | 66 => ⟨S_, .f32⟩
  | 67 => ⟨S50000x64, .f32⟩
  | 68 => ⟨S1250000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .i32⟩
  | 78 => ⟨S1250000, .i32⟩
  | 79 => ⟨S1250000, .i1⟩
  | 80 => ⟨S_, .i32⟩
  | 81 => ⟨S1250000, .i32⟩
  | 82 => ⟨S1250000, .i32⟩
  | 83 => ⟨S1250000, .i32⟩
  | 84 => ⟨S1250000x1, .i32⟩
  | 85 => ⟨S1250000x64, .f32⟩
  | 86 => ⟨S1250000x1, .f32⟩
  | 87 => ⟨S1250000x64, .f32⟩
  | 88 => ⟨S1250000x64, .f32⟩
  | 89 => ⟨S_, .f32⟩
  | 90 => ⟨S50000x64, .f32⟩
  | 91 => ⟨S1250000x1, .i32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S_, .i32⟩
  | 101 => ⟨S1250000, .i32⟩
  | 102 => ⟨S1250000, .i1⟩
  | 103 => ⟨S_, .i32⟩
  | 104 => ⟨S1250000, .i32⟩
  | 105 => ⟨S1250000, .i32⟩
  | 106 => ⟨S1250000, .i32⟩
  | 107 => ⟨S1250000x1, .i32⟩
  | 108 => ⟨S1250000x64, .f32⟩
  | 109 => ⟨S1250000x1, .f32⟩
  | 110 => ⟨S1250000x64, .f32⟩
  | 111 => ⟨S1250000x64, .f32⟩
  | 112 => ⟨S_, .f32⟩
  | 113 => ⟨S50000x64, .f32⟩
  | 114 => ⟨S1250000x1, .i32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S512x64, .f32⟩
  | 124 => ⟨S50000x1, .i32⟩
  | 125 => ⟨S512x64, .f32⟩
  | 126 => ⟨S_, .f32⟩
  | 127 => ⟨S50000, .f32⟩
  | _ => ⟨S50000x64, .f32⟩

abbrev hbmTy0_1 (i : Nat) : BufTy := match i % 128 with
  | 0 => ⟨S_, .f32⟩
  | 1 => ⟨S512, .f32⟩
  | 2 => ⟨S50000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x64, .f32⟩
  | 9 => ⟨S512x64, .f32⟩
  | 10 => ⟨S512x64, .f32⟩
  | 11 => ⟨S1x64, .f32⟩
  | 12 => ⟨S512x64, .f32⟩
  | 13 => ⟨S512x64, .f32⟩
  | 14 => ⟨S_, .f32⟩
  | 15 => ⟨S512x64, .f32⟩
  | 16 => ⟨S512x64, .f32⟩
  | 17 => ⟨S512x10, .f32⟩
  | 18 => ⟨S1x10, .f32⟩
  | 19 => ⟨S512x10, .f32⟩
  | 20 => ⟨S512x10, .f32⟩
  | 21 => ⟨S_, .f32⟩
  | 22 => ⟨S512, .f32⟩
  | 23 => ⟨S_, .f32⟩
  | 24 => ⟨S512, .f32⟩
  | 25 => ⟨S512, .f32⟩
  | 26 => ⟨S512x1, .f32⟩
  | 27 => ⟨S512x10, .f32⟩
  | 28 => ⟨S512x10, .f32⟩
  | 29 => ⟨S512x10, .f32⟩
  | 30 => ⟨S_, .f32⟩
  | 31 => ⟨S512, .f32⟩
  | 32 => ⟨S512x1, .f32⟩
  | 33 => ⟨S512x1, .f32⟩
  | 34 => ⟨S512x10, .f32⟩
  | 35 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call5_cst : Ref sig .tc := ⟨.hbm, 149, rfl⟩
abbrev main_call5_v0 : Ref sig .tc := ⟨.hbm, 150, rfl⟩
abbrev main_call5_cst_0 : Ref sig .tc := ⟨.hbm, 151, rfl⟩
abbrev main_call5_v1 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_v6 : Ref sig .tc := ⟨.hbm, 157, rfl⟩
abbrev main_call5_cst_1 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_v105 : Ref sig .tc := ⟨.hbm, 163, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S50000_S1250000_d0 : Shape.Concatenates [S1200000, S50000] S1250000 0
  slices_S2x1200000_S1x1200000_1_0 : S2x1200000.Slices ![1, 0] S1x1200000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  dot_S50000x64_S64x64_S50000x64_1_0_0_1_n_n_wf : DotDims.WF S50000x64 S64x64 S50000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The idealized kernel's run with its result named.

  @main is twelve segments — seven stretches of host operations and five kernel regions. The buffer contents at each
  segment boundary are a fold from the launch memory: a host stretch applies its operations, a region leaves each of its
  windows' arrays at what its write-backs leave. Every weakly fair execution terminates, nothing faulting, with every
  unscoped buffer at the last boundary's contents; read at the result buffer this gives the result as the last region's
  output array, and read at the argument buffers it gives the arguments unchanged.
-/
import proofs.«143078_j85452669321994_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the result
    buffer holding the last boundary's contents there and every argument array as launched. -/
theorem run_result : θ_run defs (onTc (τ := τ) (main (F := F))) ⟨m, fun _ => 0, ρ⟩ (fun r => ∀ c : Dev nD,
      r.2.mem ((c.tc : Thread nD τ).loc main_v58) = Gen.W12 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v58 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Run

end
-- ==== Proof.KernelHost.lean ====
/-
  What each stretch of host operations of the idealized kernel's @main writes, as a function of the buffer contents
  the stretch starts from.

  The edge list `a1` (two rows of 1200000 words) gives the source and destination vectors of the 1250000 messages: row
  0, resp. row 1, followed by the self loops 0 … 49999.  A message is gathered at its source read as a row number
  (negative words wrapped by 50000) and scatter-added at its destination word.  The degree of a node is the
  scatter-added count of the messages whose destination it is; its scale is the inverse square root of the degree
  where that is positive, else zero; the scales are kept as a 50000 × 1 column.  `spread y` is one round of message
  passing: row `j` of the result is the sum of the rows `y (src e)` over the messages `e` with destination `j`.
-/
import proofs.«143078_j85452669321994_2_alg».proof.Proof.Gen.KernelIdeal.Frame
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The messages' source words: row 0 of the edge list, then the self loops. -/
def srcV (a1 : IVec S2x1200000 32) : IVec S1250000 32 :=
  concatenate S1250000 0 [⟨S1200000, shapeCast S1200000 (extractStridedSlice S1x1200000 ![0, 0] a1 slices_S2x1200000_S1x1200000_0_0) shapeCasts_S1x1200000_S1200000⟩,
    ⟨S50000, iotaInDim S50000 32 0⟩] concatenates_S1200000_S50000_S1250000_d0

/-- The messages' destination words: row 1 of the edge list, then the self loops. -/
def dstV (a1 : IVec S2x1200000 32) : IVec S1250000 32 :=
  concatenate S1250000 0 [⟨S1200000, shapeCast S1200000 (extractStridedSlice S1x1200000 ![1, 0] a1 slices_S2x1200000_S1x1200000_1_0) shapeCasts_S1x1200000_S1200000⟩,
    ⟨S50000, iotaInDim S50000 32 0⟩] concatenates_S1200000_S50000_S1250000_d0

/-- Index words as a gather reads them: a negative word has 50000 added; kept as a 1250000 × 1 column. -/
def wrapI (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 50000#32))) v)

/-- Index words as a scatter reads them: as they are, as a 1250000 × 1 column. -/
def keyI (v : IVec S1250000 32) : IVec S1250000x1 32 :=
  broadcastInDim S1250000x1 ![0] bcast_S1250000_S1250000x1_0 v

/-- The degree: the count of messages per destination. -/
def degV (a1 : IVec S2x1200000 32) : FVec F S50000 .f32 :=
  Host.scatterAdd scatter_S50000_S1250000x1_S1250000_n_0_0_1
    (broadcastInDim S50000 ![] bcast_S_S50000 (constant S_ .f32 0x00000000#32))
    (keyI (dstV a1))
    (broadcastInDim S1250000 ![] bcast_S_S1250000 (constant S_ .f32 0x3F800000#32))

/-- The scale of a node: the inverse square root of its degree where positive, else zero. -/
def dinvV (a1 : IVec S2x1200000 32) : FVec F S50000 .f32 :=
  select (cmpf .ogt (degV (F := F) a1) (broadcastInDim S50000 ![] bcast_S_S50000 (constant S_ .f32 0x00000000#32)))
    (Host.rsqrt (degV (F := F) a1))
    (broadcastInDim S50000 ![] bcast_S_S50000 (constant S_ .f32 0x00000000#32))

/-- The scales as a column. -/
def dcol (a1 : IVec S2x1200000 32) : FVec F S50000x1 .f32 :=
  shapeCast S50000x1 (dinvV (F := F) a1) shapeCasts_S50000_S50000x1

/-- One round of message passing: gather the rows of `y` at the sources, scatter-add them at the destinations. -/
def spread (y : FVec F S50000x64 .f32) (sv dv : IVec S1250000 32) : FVec F S50000x64 .f32 :=
  Host.scatterAdd scatter_S50000x64_S1250000x1_S1250000x64_1_0_0_1
    (broadcastInDim S50000x64 ![] bcast_S_S50000x64 (constant S_ .f32 0x00000000#32))
    (keyI dv)
    (Host.gather gather_S50000x64_S1250000x1_S1250000x64_1_0_n_n_0_1_164 y (wrapI sv))

/-- The per-graph sums of the node rows: row `g` is the sum of the rows of the nodes whose graph word is `g`. -/
def poolSum (h : FVec F S50000x64 .f32) (a2 : IVec S50000 32) : FVec F S512x64 .f32 :=
  Host.scatterAdd scatter_S512x64_S50000x1_S50000x64_1_0_0_1
    (broadcastInDim S512x64 ![] bcast_S_S512x64 (constant S_ .f32 0x00000000#32))
    (broadcastInDim S50000x1 ![0] bcast_S50000_S50000x1_0 a2) h

/-- The per-graph node counts, as a column. -/
def poolCnt (a2 : IVec S50000 32) : FVec F S512x1 .f32 :=
  broadcastInDim S512x1 ![0] bcast_S512_S512x1_0
    (Host.scatterAdd scatter_S512_S50000x1_S50000_n_0_0_1
      (broadcastInDim S512 ![] bcast_S_S512 (constant S_ .f32 0x00000000#32))
      (broadcastInDim S50000x1 ![0] bcast_S50000_S50000x1_0 a2)
      (broadcastInDim S50000 ![] bcast_S_S50000 (constant S_ .f32 0x3F800000#32)))

/-! ## The stretches, from any contents `W` -/

variable (W : Valuation τ sig (Elt F))

set_option maxHeartbeats 2000000 in
theorem h0_v3 : StableHlo.after hostOps0 W (Proc.devRef .tc main_v3) = srcV (W (Proc.devRef .tc main_arg1)) := by
  after_results <;> rfl
set_option maxHeartbeats 2000000 in
theorem h0_v6 : StableHlo.after hostOps0 W (Proc.devRef .tc main_v6) = dstV (W (Proc.devRef .tc main_arg1)) := by
  after_results <;> rfl
set_option maxHeartbeats 2000000 in
theorem h0_v10 : StableHlo.after hostOps0 W (Proc.devRef .tc main_v10) = degV (F := F) (W (Proc.devRef .tc main_arg1)) := by
  after_results <;> rfl
set_option maxHeartbeats 2000000 in
theorem h0_v12 : StableHlo.after hostOps0 W (Proc.devRef .tc main_v12)
    = cmpf .ogt (degV (F := F) (W (Proc.devRef .tc main_arg1))) (broadcastInDim S50000 ![] bcast_S_S50000 (constant S_ .f32 0x00000000#32)) := by
  after_results <;> rfl
set_option maxHeartbeats 2000000 in
theorem h0_v13 : StableHlo.after hostOps0 W (Proc.devRef .tc main_v13) = Host.rsqrt (degV (F := F) (W (Proc.devRef .tc main_arg1))) := by
  after_results <;> rfl
set_option maxHeartbeats 2000000 in
theorem h0_cst2 : StableHlo.after hostOps0 W (Proc.devRef .tc main_cst_2) = constant S_ .f32 0x00000000#32 := by
  after_results <;> rfl
theorem h01_v14 : StableHlo.after hostOps0_1 W (Proc.devRef .tc main_v14)
    = select (W (Proc.devRef .tc main_v12)) (W (Proc.devRef .tc main_v13)) (broadcastInDim S50000 ![] bcast_S_S50000 (W (Proc.devRef .tc main_cst_2))) := by
  after_results <;> rfl
theorem h02_v15 : StableHlo.after hostOps0_2 W (Proc.devRef .tc main_v15)
    = shapeCast S50000x1 (W (Proc.devRef .tc main_v14)) shapeCasts_S50000_S50000x1 := by
  after_results <;> rfl
set_option maxHeartbeats 2000000 in
theorem h1_v26 : StableHlo.after hostOps1 W (Proc.devRef .tc main_v26)
    = spread (F := F) (W (Proc.devRef .tc main_v16)) (W (Proc.devRef .tc main_v3)) (W (Proc.devRef .tc main_v6)) := by
  after_results <;> rfl
set_option maxHeartbeats 2000000 in
theorem h2_v37 : StableHlo.after hostOps2 W (Proc.devRef .tc main_v37)
    = spread (F := F) (W (Proc.devRef .tc main_v27)) (W (Proc.devRef .tc main_v3)) (W (Proc.devRef .tc main_v6)) := by
  after_results <;> rfl
set_option maxHeartbeats 2000000 in
theorem h3_v48 : StableHlo.after hostOps3 W (Proc.devRef .tc main_v48)
    = spread (F := F) (W (Proc.devRef .tc main_v38)) (W (Proc.devRef .tc main_v3)) (W (Proc.devRef .tc main_v6)) := by
  after_results <;> rfl
set_option maxHeartbeats 2000000 in
theorem h4_v52 : StableHlo.after hostOps4 W (Proc.devRef .tc main_v52)
    = poolSum (F := F) (W (Proc.devRef .tc main_v49)) (W (Proc.devRef .tc main_arg2)) := by
  after_results <;> rfl
set_option maxHeartbeats 2000000 in
theorem h4_v57 : StableHlo.after hostOps4 W (Proc.devRef .tc main_v57) = poolCnt (F := F) (W (Proc.devRef .tc main_arg2)) := by
  after_results <;> rfl

end Cert.KernelIdeal.KValue

end
-- ==== Proof.KernelKeep.lean ====
/-
  Buffers that a segment of the idealized kernel's @main does not write keep their contents across it: a host stretch
  writes only the buffers its operations name as results, a region only its output windows' arrays (an input window's
  array is read back as entered).  Stated boundary by boundary for the buffers the value walk reads later than they
  are written: the message endpoints, the scale column, and the argument arrays.
-/
import proofs.«143078_j85452669321994_2_alg».proof.Proof.Gen.KernelIdeal.Frame
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem Idealize.ShloMosaic.StableHlo

/-- A buffer that none of a stretch's operations writes keeps its contents across the stretch. -/
macro "skip_stretch " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg)

/-! ## Buffers kept across segments -/

theorem keep_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (by skip_stretch hostOps0_2)
    _ = W1 m ρ c (Proc.devRef .tc main_v3) := (by skip_stretch hostOps0_1)

theorem keep_main_v3_4_6 (c : Dev nD) : W6 m ρ c (Proc.devRef .tc main_v3) = W4 m ρ c (Proc.devRef .tc main_v3) :=
  calc W6 m ρ c (Proc.devRef .tc main_v3)
    _ = W5 m ρ c (Proc.devRef .tc main_v3) := (W6_of_ne m ρ c main_v3 (by decide))
    _ = W4 m ρ c (Proc.devRef .tc main_v3) := (by skip_stretch hostOps1)

theorem keep_main_v3_6_8 (c : Dev nD) : W8 m ρ c (Proc.devRef .tc main_v3) = W6 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (by skip_stretch hostOps2)

theorem keep_main_v6_1_4 (c : Dev nD) : W4 m ρ c (Proc.devRef .tc main_v6) = W1 m ρ c (Proc.devRef .tc main_v6) :=
  calc W4 m ρ c (Proc.devRef .tc main_v6)
    _ = W3 m ρ c (Proc.devRef .tc main_v6) := (W4_of_ne m ρ c main_v6 (by decide))
    _ = W2 m ρ c (Proc.devRef .tc main_v6) := (by skip_stretch hostOps0_2)
    _ = W1 m ρ c (Proc.devRef .tc main_v6) := (by skip_stretch hostOps0_1)

theorem keep_main_v6_4_6 (c : Dev nD) : W6 m ρ c (Proc.devRef .tc main_v6) = W4 m ρ c (Proc.devRef .tc main_v6) :=
  calc W6 m ρ c (Proc.devRef .tc main_v6)
    _ = W5 m ρ c (Proc.devRef .tc main_v6) := (W6_of_ne m ρ c main_v6 (by decide))
    _ = W4 m ρ c (Proc.devRef .tc main_v6) := (by skip_stretch hostOps1)

theorem keep_main_v6_6_8 (c : Dev nD) : W8 m ρ c (Proc.devRef .tc main_v6) = W6 m ρ c (Proc.devRef .tc main_v6) :=
  calc W8 m ρ c (Proc.devRef .tc main_v6)
    _ = W7 m ρ c (Proc.devRef .tc main_v6) := (W8_of_ne m ρ c main_v6 (by decide))
    _ = W6 m ρ c (Proc.devRef .tc main_v6) := (by skip_stretch hostOps2)

theorem keep_main_v15_3_5 (c : Dev nD) : W5 m ρ c (Proc.devRef .tc main_v15) = W3 m ρ c (Proc.devRef .tc main_v15) :=
  calc W5 m ρ c (Proc.devRef .tc main_v15)
    _ = W4 m ρ c (Proc.devRef .tc main_v15) := (by skip_stretch hostOps1)
    _ = W3 m ρ c (Proc.devRef .tc main_v15) := ((W4_arr m ρ c 2).trans (((dat0 (V3 m ρ) c).arrAt_in 2 rfl _).trans (A_eq0 (V3 m ρ) c 2)))

theorem keep_main_v15_5_7 (c : Dev nD) : W7 m ρ c (Proc.devRef .tc main_v15) = W5 m ρ c (Proc.devRef .tc main_v15) :=
  calc W7 m ρ c (Proc.devRef .tc main_v15)
    _ = W6 m ρ c (Proc.devRef .tc main_v15) := (by skip_stretch hostOps2)
    _ = W5 m ρ c (Proc.devRef .tc main_v15) := ((W6_arr m ρ c 1).trans (((dat1 (V5 m ρ) c).arrAt_in 1 rfl _).trans (A_eq1 (V5 m ρ) c 1)))

theorem keep_main_v15_7_9 (c : Dev nD) : W9 m ρ c (Proc.devRef .tc main_v15) = W7 m ρ c (Proc.devRef .tc main_v15) :=
  calc W9 m ρ c (Proc.devRef .tc main_v15)
    _ = W8 m ρ c (Proc.devRef .tc main_v15) := (by skip_stretch hostOps3)
    _ = W7 m ρ c (Proc.devRef .tc main_v15) := ((W8_arr m ρ c 1).trans (((dat2 (V7 m ρ) c).arrAt_in 1 rfl _).trans (A_eq2 (V7 m ρ) c 1)))

theorem keep_main_arg0_0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := (by skip_stretch hostOps0_2)
    _ = W1 m ρ c (Proc.devRef .tc main_arg0) := (by skip_stretch hostOps0_1)
    _ = W0 m ρ c (Proc.devRef .tc main_arg0) := (by skip_stretch hostOps0)

theorem keep_main_arg3_0_3 (c : Dev nD) : W3 m ρ c (Proc.devRef .tc main_arg3) = W0 m ρ c (Proc.devRef .tc main_arg3) :=
  calc W3 m ρ c (Proc.devRef .tc main_arg3)
    _ = W2 m ρ c (Proc.devRef .tc main_arg3) := (by skip_stretch hostOps0_2)
    _ = W1 m ρ c (Proc.devRef .tc main_arg3) := (by skip_stretch hostOps0_1)
    _ = W0 m ρ c (Proc.devRef .tc main_arg3) := (by skip_stretch hostOps0)

theorem keep_main_arg4_0_5 (c : Dev nD) : W5 m ρ c (Proc.devRef .tc main_arg4) = W0 m ρ c (Proc.devRef .tc main_arg4) :=
  calc W5 m ρ c (Proc.devRef .tc main_arg4)
    _ = W4 m ρ c (Proc.devRef .tc main_arg4) := (by skip_stretch hostOps1)
    _ = W3 m ρ c (Proc.devRef .tc main_arg4) := (W4_of_ne m ρ c main_arg4 (by decide))
    _ = W2 m ρ c (Proc.devRef .tc main_arg4) := (by skip_stretch hostOps0_2)
    _ = W1 m ρ c (Proc.devRef .tc main_arg4) := (by skip_stretch hostOps0_1)
    _ = W0 m ρ c (Proc.devRef .tc main_arg4) := (by skip_stretch hostOps0)

theorem keep_main_arg5_0_5 (c : Dev nD) : W5 m ρ c (Proc.devRef .tc main_arg5) = W0 m ρ c (Proc.devRef .tc main_arg5) :=
  calc W5 m ρ c (Proc.devRef .tc main_arg5)
    _ = W4 m ρ c (Proc.devRef .tc main_arg5) := (by skip_stretch hostOps1)
    _ = W3 m ρ c (Proc.devRef .tc main_arg5) := (W4_of_ne m ρ c main_arg5 (by decide))
    _ = W2 m ρ c (Proc.devRef .tc main_arg5) := (by skip_stretch hostOps0_2)
    _ = W1 m ρ c (Proc.devRef .tc main_arg5) := (by skip_stretch hostOps0_1)
    _ = W0 m ρ c (Proc.devRef .tc main_arg5) := (by skip_stretch hostOps0)

theorem keep_main_arg6_0_7 (c : Dev nD) : W7 m ρ c (Proc.devRef .tc main_arg6) = W0 m ρ c (Proc.devRef .tc main_arg6) :=
  calc W7 m ρ c (Proc.devRef .tc main_arg6)
    _ = W6 m ρ c (Proc.devRef .tc main_arg6) := (by skip_stretch hostOps2)
    _ = W5 m ρ c (Proc.devRef .tc main_arg6) := (W6_of_ne m ρ c main_arg6 (by decide))
    _ = W4 m ρ c (Proc.devRef .tc main_arg6) := (by skip_stretch hostOps1)
    _ = W3 m ρ c (Proc.devRef .tc main_arg6) := (W4_of_ne m ρ c main_arg6 (by decide))
    _ = W2 m ρ c (Proc.devRef .tc main_arg6) := (by skip_stretch hostOps0_2)
    _ = W1 m ρ c (Proc.devRef .tc main_arg6) := (by skip_stretch hostOps0_1)
    _ = W0 m ρ c (Proc.devRef .tc main_arg6) := (by skip_stretch hostOps0)

theorem keep_main_arg7_0_7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := (by skip_stretch hostOps2)
    _ = W5 m ρ c (Proc.devRef .tc main_arg7) := (W6_of_ne m ρ c main_arg7 (by decide))
    _ = W4 m ρ c (Proc.devRef .tc main_arg7) := (by skip_stretch hostOps1)
    _ = W3 m ρ c (Proc.devRef .tc main_arg7) := (W4_of_ne m ρ c main_arg7 (by decide))
    _ = W2 m ρ c (Proc.devRef .tc main_arg7) := (by skip_stretch hostOps0_2)
    _ = W1 m ρ c (Proc.devRef .tc main_arg7) := (by skip_stretch hostOps0_1)
    _ = W0 m ρ c (Proc.devRef .tc main_arg7) := (by skip_stretch hostOps0)

theorem keep_main_arg8_0_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := (by skip_stretch hostOps3)
    _ = W7 m ρ c (Proc.devRef .tc main_arg8) := (W8_of_ne m ρ c main_arg8 (by decide))
    _ = W6 m ρ c (Proc.devRef .tc main_arg8) := (by skip_stretch hostOps2)
    _ = W5 m ρ c (Proc.devRef .tc main_arg8) := (W6_of_ne m ρ c main_arg8 (by decide))
    _ = W4 m ρ c (Proc.devRef .tc main_arg8) := (by skip_stretch hostOps1)
    _ = W3 m ρ c (Proc.devRef .tc main_arg8) := (W4_of_ne m ρ c main_arg8 (by decide))
    _ = W2 m ρ c (Proc.devRef .tc main_arg8) := (by skip_stretch hostOps0_2)
    _ = W1 m ρ c (Proc.devRef .tc main_arg8) := (by skip_stretch hostOps0_1)
    _ = W0 m ρ c (Proc.devRef .tc main_arg8) := (by skip_stretch hostOps0)

theorem keep_main_arg2_0_10 (c : Dev nD) : W10 m ρ c (Proc.devRef .tc main_arg2) = W0 m ρ c (Proc.devRef .tc main_arg2) :=
  calc W10 m ρ c (Proc.devRef .tc main_arg2)
    _ = W9 m ρ c (Proc.devRef .tc main_arg2) := (W10_of_ne m ρ c main_arg2 (by decide))
    _ = W8 m ρ c (Proc.devRef .tc main_arg2) := (by skip_stretch hostOps3)
    _ = W7 m ρ c (Proc.devRef .tc main_arg2) := (W8_of_ne m ρ c main_arg2 (by decide))
    _ = W6 m ρ c (Proc.devRef .tc main_arg2) := (by skip_stretch hostOps2)
    _ = W5 m ρ c (Proc.devRef .tc main_arg2) := (W6_of_ne m ρ c main_arg2 (by decide))
    _ = W4 m ρ c (Proc.devRef .tc main_arg2) := (by skip_stretch hostOps1)
    _ = W3 m ρ c (Proc.devRef .tc main_arg2) := (W4_of_ne m ρ c main_arg2 (by decide))
    _ = W2 m ρ c (Proc.devRef .tc main_arg2) := (by skip_stretch hostOps0_2)
    _ = W1 m ρ c (Proc.devRef .tc main_arg2) := (by skip_stretch hostOps0_1)
    _ = W0 m ρ c (Proc.devRef .tc main_arg2) := (by skip_stretch hostOps0)

theorem keep_main_arg9_0_11 (c : Dev nD) : W11 m ρ c (Proc.devRef .tc main_arg9) = W0 m ρ c (Proc.devRef .tc main_arg9) :=
  calc W11 m ρ c (Proc.devRef .tc main_arg9)
    _ = W10 m ρ c (Proc.devRef .tc main_arg9) := (by skip_stretch hostOps4)
    _ = W9 m ρ c (Proc.devRef .tc main_arg9) := (W10_of_ne m ρ c main_arg9 (by decide))
    _ = W8 m ρ c (Proc.devRef .tc main_arg9) := (by skip_stretch hostOps3)
    _ = W7 m ρ c (Proc.devRef .tc main_arg9) := (W8_of_ne m ρ c main_arg9 (by decide))
    _ = W6 m ρ c (Proc.devRef .tc main_arg9) := (by skip_stretch hostOps2)
    _ = W5 m ρ c (Proc.devRef .tc main_arg9) := (W6_of_ne m ρ c main_arg9 (by decide))
    _ = W4 m ρ c (Proc.devRef .tc main_arg9) := (by skip_stretch hostOps1)
    _ = W3 m ρ c (Proc.devRef .tc main_arg9) := (W4_of_ne m ρ c main_arg9 (by decide))
    _ = W2 m ρ c (Proc.devRef .tc main_arg9) := (by skip_stretch hostOps0_2)
    _ = W1 m ρ c (Proc.devRef .tc main_arg9) := (by skip_stretch hostOps0_1)
    _ = W0 m ρ c (Proc.devRef .tc main_arg9) := (by skip_stretch hostOps0)

theorem keep_main_arg10_0_11 (c : Dev nD) : W11 m ρ c (Proc.devRef .tc main_arg10) = W0 m ρ c (Proc.devRef .tc main_arg10) :=
  calc W11 m ρ c (Proc.devRef .tc main_arg10)
    _ = W10 m ρ c (Proc.devRef .tc main_arg10) := (by skip_stretch hostOps4)
    _ = W9 m ρ c (Proc.devRef .tc main_arg10) := (W10_of_ne m ρ c main_arg10 (by decide))
    _ = W8 m ρ c (Proc.devRef .tc main_arg10) := (by skip_stretch hostOps3)
    _ = W7 m ρ c (Proc.devRef .tc main_arg10) := (W8_of_ne m ρ c main_arg10 (by decide))
    _ = W6 m ρ c (Proc.devRef .tc main_arg10) := (by skip_stretch hostOps2)
    _ = W5 m ρ c (Proc.devRef .tc main_arg10) := (W6_of_ne m ρ c main_arg10 (by decide))
    _ = W4 m ρ c (Proc.devRef .tc main_arg10) := (by skip_stretch hostOps1)
    _ = W3 m ρ c (Proc.devRef .tc main_arg10) := (W4_of_ne m ρ c main_arg10 (by decide))
    _ = W2 m ρ c (Proc.devRef .tc main_arg10) := (by skip_stretch hostOps0_2)
    _ = W1 m ρ c (Proc.devRef .tc main_arg10) := (by skip_stretch hostOps0_1)
    _ = W0 m ρ c (Proc.devRef .tc main_arg10) := (by skip_stretch hostOps0)

theorem keep_main_arg11_0_11 (c : Dev nD) : W11 m ρ c (Proc.devRef .tc main_arg11) = W0 m ρ c (Proc.devRef .tc main_arg11) :=
  calc W11 m ρ c (Proc.devRef .tc main_arg11)
    _ = W10 m ρ c (Proc.devRef .tc main_arg11) := (by skip_stretch hostOps4)
    _ = W9 m ρ c (Proc.devRef .tc main_arg11) := (W10_of_ne m ρ c main_arg11 (by decide))
    _ = W8 m ρ c (Proc.devRef .tc main_arg11) := (by skip_stretch hostOps3)
    _ = W7 m ρ c (Proc.devRef .tc main_arg11) := (W8_of_ne m ρ c main_arg11 (by decide))
    _ = W6 m ρ c (Proc.devRef .tc main_arg11) := (by skip_stretch hostOps2)
    _ = W5 m ρ c (Proc.devRef .tc main_arg11) := (W6_of_ne m ρ c main_arg11 (by decide))
    _ = W4 m ρ c (Proc.devRef .tc main_arg11) := (by skip_stretch hostOps1)
    _ = W3 m ρ c (Proc.devRef .tc main_arg11) := (W4_of_ne m ρ c main_arg11 (by decide))
    _ = W2 m ρ c (Proc.devRef .tc main_arg11) := (by skip_stretch hostOps0_2)
    _ = W1 m ρ c (Proc.devRef .tc main_arg11) := (by skip_stretch hostOps0_1)
    _ = W0 m ρ c (Proc.devRef .tc main_arg11) := (by skip_stretch hostOps0)

theorem keep_main_arg12_0_11 (c : Dev nD) : W11 m ρ c (Proc.devRef .tc main_arg12) = W0 m ρ c (Proc.devRef .tc main_arg12) :=
  calc W11 m ρ c (Proc.devRef .tc main_arg12)
    _ = W10 m ρ c (Proc.devRef .tc main_arg12) := (by skip_stretch hostOps4)
    _ = W9 m ρ c (Proc.devRef .tc main_arg12) := (W10_of_ne m ρ c main_arg12 (by decide))
    _ = W8 m ρ c (Proc.devRef .tc main_arg12) := (by skip_stretch hostOps3)
    _ = W7 m ρ c (Proc.devRef .tc main_arg12) := (W8_of_ne m ρ c main_arg12 (by decide))
    _ = W6 m ρ c (Proc.devRef .tc main_arg12) := (by skip_stretch hostOps2)
    _ = W5 m ρ c (Proc.devRef .tc main_arg12) := (W6_of_ne m ρ c main_arg12 (by decide))
    _ = W4 m ρ c (Proc.devRef .tc main_arg12) := (by skip_stretch hostOps1)
    _ = W3 m ρ c (Proc.devRef .tc main_arg12) := (W4_of_ne m ρ c main_arg12 (by decide))
    _ = W2 m ρ c (Proc.devRef .tc main_arg12) := (by skip_stretch hostOps0_2)
    _ = W1 m ρ c (Proc.devRef .tc main_arg12) := (by skip_stretch hostOps0_1)
    _ = W0 m ρ c (Proc.devRef .tc main_arg12) := (by skip_stretch hostOps0)

end Cert.KernelIdeal.KValue

end
-- ==== Proof.Spec.lean ====
/-
  The per-layer functions of the graph network, as whole-array functions on the extended reals.

  A node-feature array has 50000 rows (nodes) and 64 columns (features); `d` is a 50000 × 1 column holding one
  scale per node.  `mmScale x w d` is the matrix product `x · w` with row `r` scaled by `d r`;  `act s d b` scales
  row `r` of `s` by `d r`, adds the bias `b` along the columns and clamps below at the zero word (a ReLU);
  `actMm s d b w` is `mmScale (act s d b) w d`.
-/
import Idealize.ShloMosaic.PureOps.Ideal
import Idealize.ShloMosaic.Lib.ValueIdx

noncomputable section

open scoped BigOperators

namespace Cert.Spec

open Idealize.ShloMosaic Idealize.ShloMosaic.ValueIdx

abbrev sNH : Shape := ⟨2, ![50000, 64]⟩
abbrev sN1 : Shape := ⟨2, ![50000, 1]⟩
abbrev sHH : Shape := ⟨2, ![64, 64]⟩
abbrev sH : Shape := ⟨1, ![64]⟩

/-- The zero word of the 32-bit format, as the extended real it denotes. -/
abbrev zeroW : EReal := Ideal.ofBits .f32 0x00000000#32

/-- `(x · w)` with row `r` scaled by `d r`: entry `(r, c)` is `(∑ k, x (r, k) * w (k, c)) * d (r, 0)`. -/
def mmScale (x : sNH.Idx → EReal) (w : sHH.Idx → EReal) (d : sN1.Idx → EReal) : sNH.Idx → EReal :=
  fun i => (∑ k : Fin 64, x (ix2 (i 0) k) * w (ix2 k (i 1))) * d (ix2 (i 0) (0 : Fin 1))

/-- Row `r` of `s` scaled by `d r`, plus the bias along the columns, clamped below at the zero word:
    entry `(r, c)` is `max (s (r, c) * d (r, 0) + b c) 0`. -/
def act (s : sNH.Idx → EReal) (d : sN1.Idx → EReal) (b : sH.Idx → EReal) : sNH.Idx → EReal :=
  fun i => max (s i * d (ix2 (i 0) (0 : Fin 1)) + b (ix1 (i 1))) zeroW

/-- The activation followed by the scaled product. -/
def actMm (s : sNH.Idx → EReal) (d : sN1.Idx → EReal) (b : sH.Idx → EReal) (w : sHH.Idx → EReal) : sNH.Idx → EReal :=
  mmScale (act s d b) w d

end Cert.Spec

end
-- ==== Proof.SpecHead.lean ====
/-
  The readout head of the graph network, as a whole-array function on the extended reals.

  There are 512 graphs.  `sums` (512 × 64) holds, per graph, the sum of its nodes' feature rows and `cnts`
  (a 512 × 1 column) the number of its nodes.  The head takes the mean row `sums / max cnts 1`, applies a dense
  layer with a ReLU (`w1` 64 × 64, `b1`), a second dense layer to 10 classes (`w2` 64 × 10, `b2`), and a
  row-wise log-softmax:  with `m` the largest of a row's ten logits (never below `-∞`), entry `(g, c)` is
  `(z (g, c) - m) - log (∑ k, exp (z (g, k) - m))`.
-/
import Idealize.ShloMosaic.PureOps.Ideal
import Idealize.ShloMosaic.Lib.ValueIdx

noncomputable section

open scoped BigOperators

namespace Cert.SpecHead

open Idealize.ShloMosaic Idealize.ShloMosaic.ValueIdx

abbrev sGH : Shape := ⟨2, ![512, 64]⟩
abbrev sG1 : Shape := ⟨2, ![512, 1]⟩
abbrev sHH : Shape := ⟨2, ![64, 64]⟩
abbrev sH : Shape := ⟨1, ![64]⟩
abbrev sHC : Shape := ⟨2, ![64, 10]⟩
abbrev sC : Shape := ⟨1, ![10]⟩
abbrev sGC : Shape := ⟨2, ![512, 10]⟩

/-- The words `0`, `1` and `-∞` of the 32-bit format, as the extended reals they denote. -/
abbrev zeroW : EReal := Ideal.ofBits .f32 0x00000000#32
abbrev oneW : EReal := Ideal.ofBits .f32 0x3F800000#32
abbrev negInfW : EReal := Ideal.ofBits .f32 0xFF800000#32

/-- The mean feature row of each graph: entry `(g, f)` is `sums (g, f) / max (cnts (g, 0)) 1`. -/
def mean (sums : sGH.Idx → EReal) (cnts : sG1.Idx → EReal) : sGH.Idx → EReal :=
  fun i => Ideal.div (sums i) (max (cnts (ix2 (i 0) (0 : Fin 1))) oneW)

/-- A dense layer with a ReLU: entry `(g, c)` is `max (∑ k, x (g, k) * w (k, c) + b c) 0`. -/
def hidden (x : sGH.Idx → EReal) (w : sHH.Idx → EReal) (b : sH.Idx → EReal) : sGH.Idx → EReal :=
  fun i => max ((∑ k : Fin 64, x (ix2 (i 0) k) * w (ix2 k (i 1))) + b (ix1 (i 1))) zeroW

/-- The dense layer to the ten classes: entry `(g, c)` is `∑ k, x (g, k) * w (k, c) + b c`. -/
def logits (x : sGH.Idx → EReal) (w : sHC.Idx → EReal) (b : sC.Idx → EReal) : sGC.Idx → EReal :=
  fun i => (∑ k : Fin 64, x (ix2 (i 0) k) * w (ix2 k (i 1))) + b (ix1 (i 1))

/-- The largest of row `g`'s ten entries, taken from `-∞` (and never below it). -/
def rowMax (z : sGC.Idx → EReal) (g : Fin 512) : EReal :=
  max negInfW ((Finset.univ : Finset (Fin 10)).fold max negInfW fun k => z (ix2 g k))

/-- Row `g` shifted by its maximum, at column `c`. -/
def shifted (z : sGC.Idx → EReal) (g : Fin 512) (c : Fin 10) : EReal := z (ix2 g c) - rowMax z g

/-- The row-wise log-softmax: entry `(g, c)` is the shifted entry minus the logarithm of the row's sum of the
    exponentials of its shifted entries. -/
def logSoftmax (z : sGC.Idx → EReal) : sGC.Idx → EReal :=
  fun i => shifted z (i 0) (i 1) - Ideal.log (∑ k : Fin 10, Ideal.exp (shifted z (i 0) k))

/-- The head: mean row, dense layer with ReLU, dense layer, log-softmax. -/
def head (sums : sGH.Idx → EReal) (cnts : sG1.Idx → EReal) (w1 : sHH.Idx → EReal) (b1 : sH.Idx → EReal)
    (w2 : sHC.Idx → EReal) (b2 : sC.Idx → EReal) : sGC.Idx → EReal :=
  logSoftmax (logits (hidden (mean sums cnts) w1 b1) w2 b2)

end Cert.SpecHead

end
-- ==== Proof.KernelChain.lean ====
/-
  The idealized kernel's result as one function of its argument arrays.

  Walking the boundary contents back from the result buffer: the last region's output is the classifier head of the
  pooled sums and counts; the pooled sums are of the third layer's activations, which the fourth region computes from the
  third round of message passing; each round spreads the previous region's output, and each of the first three regions
  is a scaled matrix product of (the activation of) the previous round.  Buffers that a segment does not write keep their
  contents across it: a host stretch's written buffers are listed in it, a region writes only its output windows' arrays.
-/
import proofs.«143078_j85452669321994_2_alg».proof.Proof.Gen.KernelIdeal.Frame
import proofs.«143078_j85452669321994_2_alg».proof.Proof.KernelHost
import proofs.«143078_j85452669321994_2_alg».proof.Proof.KernelKeep
import proofs.«143078_j85452669321994_2_alg».proof.Proof.Spec
import proofs.«143078_j85452669321994_2_alg».proof.Proof.SpecHead
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## The kernel's function -/

/-- The network as the kernel computes it: three rounds of scaled product, spread, activation; pooling; the head. -/
def kernelFn (x : FVec Ideal S50000x64 .f32) (a1 : IVec S2x1200000 32) (a2 : IVec S50000 32)
    (w1 : FVec Ideal S64x64 .f32) (b1 : FVec Ideal S64 .f32) (w2 : FVec Ideal S64x64 .f32) (b2 : FVec Ideal S64 .f32)
    (w3 : FVec Ideal S64x64 .f32) (b3 : FVec Ideal S64 .f32)
    (l1w : FVec Ideal S64x64 .f32) (l1b : FVec Ideal S64 .f32) (l2w : FVec Ideal S64x10 .f32) (l2b : FVec Ideal S10 .f32) :
    FVec Ideal S512x10 .f32 :=
  let D := dcol (F := Ideal) a1
  let s1 := spread (F := Ideal) (Cert.Spec.mmScale x w1 D) (srcV a1) (dstV a1)
  let s2 := spread (F := Ideal) (Cert.Spec.actMm s1 D b1 w2) (srcV a1) (dstV a1)
  let s3 := spread (F := Ideal) (Cert.Spec.actMm s2 D b2 w3) (srcV a1) (dstV a1)
  Cert.SpecHead.head (poolSum (F := Ideal) (Cert.Spec.act s3 D b3) a2) (poolCnt (F := Ideal) a2) l1w l1b l2w l2b

section Walk

variable (c : Dev nD)

theorem at_src : W1 m ρ c (Proc.devRef .tc main_v3) = srcV (m ((c : Thread nD τ).loc main_arg1)) := h0_v3 (W0 m ρ c)
theorem at_dst : W1 m ρ c (Proc.devRef .tc main_v6) = dstV (m ((c : Thread nD τ).loc main_arg1)) := h0_v6 (W0 m ρ c)

theorem at_dinv : W2 m ρ c (Proc.devRef .tc main_v14) = dinvV (F := Ideal) (m ((c : Thread nD τ).loc main_arg1)) :=
  (h01_v14 (W1 m ρ c)).trans (by
    rw [show W1 m ρ c (Proc.devRef .tc main_v12) = _ from h0_v12 (W0 m ρ c),
      show W1 m ρ c (Proc.devRef .tc main_v13) = _ from h0_v13 (W0 m ρ c),
      show W1 m ρ c (Proc.devRef .tc main_cst_2) = _ from h0_cst2 (W0 m ρ c)]
    rfl)

theorem at_dcol : W3 m ρ c (Proc.devRef .tc main_v15) = dcol (F := Ideal) (m ((c : Thread nD τ).loc main_arg1)) :=
  (h02_v15 (W2 m ρ c)).trans (congrArg (fun v => shapeCast S50000x1 v shapeCasts_S50000_S50000x1) (at_dinv m ρ c))

variable
  (H0 : ∀ (V : (c : Dev nD) → (b : Ref sig .tc) → Buf (Elt Ideal) ((c : Thread nD τ).loc b)) (c : Dev nD), (dat0 (F := Ideal) V c).arrAt 3 cfg0.N
    = Cert.Spec.mmScale (V c (Pipeline.arrRef spec0 0)) (V c (Pipeline.arrRef spec0 1)) (V c (Pipeline.arrRef spec0 2)))
  (H1 : ∀ (V : (c : Dev nD) → (b : Ref sig .tc) → Buf (Elt Ideal) ((c : Thread nD τ).loc b)) (c : Dev nD), (dat1 (F := Ideal) V c).arrAt 4 cfg1.N
    = Cert.Spec.actMm (V c (Pipeline.arrRef spec1 0)) (V c (Pipeline.arrRef spec1 1)) (V c (Pipeline.arrRef spec1 2)) (V c (Pipeline.arrRef spec1 3)))
  (H2 : ∀ (V : (c : Dev nD) → (b : Ref sig .tc) → Buf (Elt Ideal) ((c : Thread nD τ).loc b)) (c : Dev nD), (dat2 (F := Ideal) V c).arrAt 4 cfg2.N
    = Cert.Spec.actMm (V c (Pipeline.arrRef spec2 0)) (V c (Pipeline.arrRef spec2 1)) (V c (Pipeline.arrRef spec2 2)) (V c (Pipeline.arrRef spec2 3)))
  (H3 : ∀ (V : (c : Dev nD) → (b : Ref sig .tc) → Buf (Elt Ideal) ((c : Thread nD τ).loc b)) (c : Dev nD), (dat3 (F := Ideal) V c).arrAt 3 cfg3.N
    = Cert.Spec.act (V c (Pipeline.arrRef spec3 0)) (V c (Pipeline.arrRef spec3 1)) (V c (Pipeline.arrRef spec3 2)))
  (H4 : ∀ (V : (c : Dev nD) → (b : Ref sig .tc) → Buf (Elt Ideal) ((c : Thread nD τ).loc b)) (c : Dev nD), (dat4 (F := Ideal) V c).arrAt 6 cfg4.N
    = Cert.SpecHead.head (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))

include H0 in
theorem at_y1 : W4 m ρ c (Proc.devRef .tc main_v16)
    = Cert.Spec.mmScale (m ((c : Thread nD τ).loc main_arg0)) (m ((c : Thread nD τ).loc main_arg3)) (dcol (F := Ideal) (m ((c : Thread nD τ).loc main_arg1))) :=
  (W4_arr m ρ c 3).trans ((H0 (V3 m ρ) c).trans (by
    show Cert.Spec.mmScale (W3 m ρ c (Proc.devRef .tc main_arg0)) (W3 m ρ c (Proc.devRef .tc main_arg3)) (W3 m ρ c (Proc.devRef .tc main_v15)) = _
    rw [keep_main_arg0_0_3 m ρ c, keep_main_arg3_0_3 m ρ c, at_dcol m ρ c]))

include H0 in
theorem at_s1 : W5 m ρ c (Proc.devRef .tc main_v26)
    = spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1))) :=
  (h1_v26 (W4 m ρ c)).trans (by
    rw [at_y1 m ρ c H0, keep_main_v3_1_4 m ρ c, at_src m ρ c, keep_main_v6_1_4 m ρ c, at_dst m ρ c])

include H0 H1 in
theorem at_y2 : W6 m ρ c (Proc.devRef .tc main_v27) = Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5)) :=
  (W6_arr m ρ c 4).trans ((H1 (V5 m ρ) c).trans (by
    show Cert.Spec.actMm (W5 m ρ c (Proc.devRef .tc main_v26)) (W5 m ρ c (Proc.devRef .tc main_v15)) (W5 m ρ c (Proc.devRef .tc main_arg4)) (W5 m ρ c (Proc.devRef .tc main_arg5)) = _
    rw [at_s1 m ρ c H0, keep_main_v15_3_5 m ρ c, at_dcol m ρ c, keep_main_arg4_0_5 m ρ c, keep_main_arg5_0_5 m ρ c]))

include H0 H1 in
theorem at_s2 : W7 m ρ c (Proc.devRef .tc main_v37) = spread (F := Ideal) (Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5))) (srcV (m ((c : Thread nD τ).loc main_arg1))) (dstV (m ((c : Thread nD τ).loc main_arg1))) :=
  (h2_v37 (W6 m ρ c)).trans (by
    rw [at_y2 m ρ c H0 H1, keep_main_v3_4_6 m ρ c, keep_main_v3_1_4 m ρ c, at_src m ρ c, keep_main_v6_4_6 m ρ c, keep_main_v6_1_4 m ρ c, at_dst m ρ c])

include H0 H1 H2 in
theorem at_y3 : W8 m ρ c (Proc.devRef .tc main_v38) = Cert.Spec.actMm (spread (F := Ideal) (Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5))) (srcV (m ((c : Thread nD τ).loc main_arg1))) (dstV (m ((c : Thread nD τ).loc main_arg1)))) (dcol (F := Ideal) (m ((c : Thread nD τ).loc main_arg1))) (m ((c : Thread nD τ).loc main_arg6)) (m ((c : Thread nD τ).loc main_arg7)) :=
  (W8_arr m ρ c 4).trans ((H2 (V7 m ρ) c).trans (by
    show Cert.Spec.actMm (W7 m ρ c (Proc.devRef .tc main_v37)) (W7 m ρ c (Proc.devRef .tc main_v15)) (W7 m ρ c (Proc.devRef .tc main_arg6)) (W7 m ρ c (Proc.devRef .tc main_arg7)) = _
    rw [at_s2 m ρ c H0 H1, keep_main_v15_5_7 m ρ c, keep_main_v15_3_5 m ρ c, at_dcol m ρ c, keep_main_arg6_0_7 m ρ c, keep_main_arg7_0_7 m ρ c]))

include H0 H1 H2 in
theorem at_s3 : W9 m ρ c (Proc.devRef .tc main_v48) = spread (F := Ideal) (Cert.Spec.actMm (spread (F := Ideal) (Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5))) (srcV (m ((c : Thread nD τ).loc main_arg1))) (dstV (m ((c : Thread nD τ).loc main_arg1)))) (dcol (F := Ideal) (m ((c : Thread nD τ).loc main_arg1))) (m ((c : Thread nD τ).loc main_arg6)) (m ((c : Thread nD τ).loc main_arg7))) (srcV (m ((c : Thread nD τ).loc main_arg1))) (dstV (m ((c : Thread nD τ).loc main_arg1))) :=
  (h3_v48 (W8 m ρ c)).trans (by
    rw [at_y3 m ρ c H0 H1 H2, keep_main_v3_6_8 m ρ c, keep_main_v3_4_6 m ρ c, keep_main_v3_1_4 m ρ c, at_src m ρ c,
      keep_main_v6_6_8 m ρ c, keep_main_v6_4_6 m ρ c, keep_main_v6_1_4 m ρ c, at_dst m ρ c])

include H0 H1 H2 H3 in
theorem at_h3 : W10 m ρ c (Proc.devRef .tc main_v49) = Cert.Spec.act (spread (F := Ideal) (Cert.Spec.actMm (spread (F := Ideal) (Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5))) (srcV (m ((c : Thread nD τ).loc main_arg1))) (dstV (m ((c : Thread nD τ).loc main_arg1)))) (dcol (F := Ideal) (m ((c : Thread nD τ).loc main_arg1))) (m ((c : Thread nD τ).loc main_arg6)) (m ((c : Thread nD τ).loc main_arg7))) (srcV (m ((c : Thread nD τ).loc main_arg1))) (dstV (m ((c : Thread nD τ).loc main_arg1)))) (dcol (F := Ideal) (m ((c : Thread nD τ).loc main_arg1))) (m ((c : Thread nD τ).loc main_arg8)) :=
  (W10_arr m ρ c 3).trans ((H3 (V9 m ρ) c).trans (by
    show Cert.Spec.act (W9 m ρ c (Proc.devRef .tc main_v48)) (W9 m ρ c (Proc.devRef .tc main_v15)) (W9 m ρ c (Proc.devRef .tc main_arg8)) = _
    rw [at_s3 m ρ c H0 H1 H2, keep_main_v15_7_9 m ρ c, keep_main_v15_5_7 m ρ c, keep_main_v15_3_5 m ρ c, at_dcol m ρ c, keep_main_arg8_0_9 m ρ c]))

include H0 H1 H2 H3 in
theorem at_sums : W11 m ρ c (Proc.devRef .tc main_v52) = poolSum (F := Ideal) (Cert.Spec.act (spread (F := Ideal) (Cert.Spec.actMm (spread (F := Ideal) (Cert.Spec.actMm (spread (F := Ideal) (Cert.Spec.mmScale (m ((c : Thread nD τ).loc main_arg0)) (m ((c : Thread nD τ).loc main_arg3)) (dcol (F := Ideal) (m ((c : Thread nD τ).loc main_arg1)))) (srcV (m ((c : Thread nD τ).loc main_arg1))) (dstV (m ((c : Thread nD τ).loc main_arg1)))) (dcol (F := Ideal) (m ((c : Thread nD τ).loc main_arg1))) (m ((c : Thread nD τ).loc main_arg4)) (m ((c : Thread nD τ).loc main_arg5))) (srcV (m ((c : Thread nD τ).loc main_arg1))) (dstV (m ((c : Thread nD τ).loc main_arg1)))) (dcol (F := Ideal) (m ((c : Thread nD τ).loc main_arg1))) (m ((c : Thread nD τ).loc main_arg6)) (m ((c : Thread nD τ).loc main_arg7))) (srcV (m ((c : Thread nD τ).loc main_arg1))) (dstV (m ((c : Thread nD τ).loc main_arg1)))) (dcol (F := Ideal) (m ((c : Thread nD τ).loc main_arg1))) (m ((c : Thread nD τ).loc main_arg8))) (m ((c : Thread nD τ).loc main_arg2)) :=
  (h4_v52 (W10 m ρ c)).trans (by rw [at_h3 m ρ c H0 H1 H2 H3, keep_main_arg2_0_10 m ρ c])

theorem at_cnts : W11 m ρ c (Proc.devRef .tc main_v57) = poolCnt (F := Ideal) (m ((c : Thread nD τ).loc main_arg2)) :=
  (h4_v57 (W10 m ρ c)).trans (by rw [keep_main_arg2_0_10 m ρ c])

include H0 H1 H2 H3 H4 in
/-- The result buffer's final contents are the network's function of the launch arrays. -/
theorem kernel_value : W12 m ρ c (Proc.devRef .tc main_v58)
    = kernelFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 6).trans ((H4 (V11 m ρ) c).trans (by
    show Cert.SpecHead.head (W11 m ρ c (Proc.devRef .tc main_v52)) (W11 m ρ c (Proc.devRef .tc main_v57)) (W11 m ρ c (Proc.devRef .tc main_arg9)) (W11 m ρ c (Proc.devRef .tc main_arg10)) (W11 m ρ c (Proc.devRef .tc main_arg11)) (W11 m ρ c (Proc.devRef .tc main_arg12)) = _
    rw [at_sums m ρ c H0 H1 H2 H3, at_cnts m ρ c, keep_main_arg9_0_11 m ρ c, keep_main_arg10_0_11 m ρ c, keep_main_arg11_0_11 m ρ c, keep_main_arg12_0_11 m ρ c]; rfl))

end Walk

end Cert.KernelIdeal.KValue

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Region0.lean ====
/-
  The first layer's scaled matrix product, as one function of whole arrays.

  The layer is computed ten row blocks at a time: block `t` is rows `5000 t … 5000 t + 4999` of the 50000-row arrays, the
  64 × 64 weights are read whole at every block.  On a block the entry at row `p`, column `q` is row `p` of the block
  times column `q` of the weights — a sum over the 64 contracted coordinates — scaled by the scale of row `p`.  Since
  row `p` of block `t` is row `5000 t + p` of the arrays, each block written back is that block of
  `Cert.Spec.mmScale` of the arrays the layer is given; the ten blocks cover the 50000 rows, so the output array ends
  holding `Cert.Spec.mmScale` of them.
-/
import proofs.«143078_j85452669321994_2_alg».proof.Proof.Gen.KernelIdeal.Frame
import proofs.«143078_j85452669321994_2_alg».proof.Proof.Spec
import proofs.«143078_j85452669321994_2_alg».proof.Proof.LibKeepdims
import proofs.«143078_j85452669321994_2_alg».proof.Proof.LibPlainDot
import Idealize.ShloMosaic.Lib.Pipeline.Value
import Idealize.ShloMosaic.Lib.ValueIdx
import Idealize.ShloMosaic.Lib.ValueLayout
import Idealize.ShloMosaic.PureOps.Ideal
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValue

open Cert.KernelIdeal Cert.KernelIdeal.Gen

/-- The product's dimension numbers contract the left operand's columns against the right operand's rows: the left
    operand is read along the output's row, -/
theorem mm_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- at the contracted coordinate; -/
theorem mm_lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- the right operand at the contracted coordinate, -/
theorem mm_rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- along the output's column. -/
theorem mm_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's arithmetic at row `p`, column `q` of a block: row `p` of the block times column `q` of the weights,
    scaled by the row's scale. -/
theorem mm_block_apply (x0 : Vec Ideal S5000x64 .f32) (x1 : Vec Ideal S64x64 .f32) (x2 : Vec Ideal S5000x1 .f32)
    (p : Fin 5000) (q : Fin 64) :
    k0_pay1 (F := Ideal) x0 x1 x2 (ix2 p q)
      = (∑ k : Fin 64, x0 (ix2 p k) * x1 (ix2 k q)) * x2 (ix2 p (0 : Fin 1)) := by
  unfold k0_pay1
  rw [mulf_apply, shapeCast_self, Keepdims.broadcastTo_a1_ab_apply]
  refine congrArg (· * x2 (ix2 p (0 : Fin 1))) ?_
  exact Cert.Lib.PlainDot.matmul_zero_apply dot_S5000x64_S64x64_S5000x64_1_0_0_1_n_n rfl rfl
    mm_lhs_row mm_lhs_col mm_rhs_row mm_rhs_col none (truncf .bf16 x0 bitsLt_bf16_f32) (truncf .bf16 x1 bitsLt_bf16_f32) (ix2 p q)

/-- The scaled product at an array index `i`, from the entries it reads: row `i 0` of the left operand, column `i 1`
    of the weights and the scale of row `i 0`. -/
theorem mmScale_at (X : Cert.Spec.sNH.Idx → EReal) (W : Cert.Spec.sHH.Idx → EReal) (D : Cert.Spec.sN1.Idx → EReal)
    (i : Cert.Spec.sNH.Idx) (ix : Fin 64 → Cert.Spec.sNH.Idx) (iw : Fin 64 → Cert.Spec.sHH.Idx) (id : Cert.Spec.sN1.Idx)
    (hx : ∀ k, ix k = ix2 (i 0) k) (hw : ∀ k, iw k = ix2 k (i 1)) (hd : id = ix2 (i 0) (0 : Fin 1)) :
    (∑ k : Fin 64, X (ix k) * W (iw k)) * D id = Cert.Spec.mmScale X W D i := by
  subst hd
  unfold Cert.Spec.mmScale
  refine congrArg (· * D (ix2 (i 0) (0 : Fin 1))) (Finset.sum_congr rfl fun k _ => ?_)
  rw [hx k, hw k]
  rfl

variable (V : (c : Dev nD) → (b : Ref sig .tc) → Buf (Elt Ideal) ((c : Thread nD τ).loc b))

theorem origin2 : (![0, 0] : Fin 2 → Nat) = fun _ => 0 := funext fun a => by fin_cases a <;> rfl

/-- The index maps, decided over the grid: at point `t` the left operand's and the scales' blocks are the output's
    row block `t`, the weights are the whole matrix. -/
theorem mm_index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the arrays the region finds. -/
theorem mm_flushed (c : Dev nD) (t : Fin cfg0.N) :
    (dat0 (F := Ideal) V c).flushed 3 t = ((cfg0.win 3).blk t).view.read (Elt Ideal)
      (Cert.Spec.mmScale (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin2]
  simp only [View.ld_unit_zero (S := S5000x64) origin2, View.ld_unit_zero (S := S64x64) origin2, View.ld_unit_zero (S := S5000x1) origin2]
  obtain ⟨e00, e01, e10, e11, e20, e21, e30, e31⟩ := mm_index_facts t
  funext j
  obtain ⟨p, q, rfl⟩ : ∃ (p : Fin 5000) (q : Fin 64), j = ix2 p q := ⟨j 0, j 1, eq_ix2 j⟩
  refine (mm_block_apply (iblk0 V c 0 t) (iblk0 V c 1 t) (iblk0 V c 2 t) p q).trans ?_
  have hx : ∀ k : Fin 64, ((cfg0.win 0).blk t).view.emb (ix2 p k)
      = (ix2 ((((cfg0.win 3).blk t).view.emb (ix2 p q) : Cert.Spec.sNH.Idx) 0) k : Cert.Spec.sNH.Idx) := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have hw : ∀ k : Fin 64, ((cfg0.win 1).blk t).view.emb (ix2 k q)
      = (ix2 k ((((cfg0.win 3).blk t).view.emb (ix2 p q) : Cert.Spec.sNH.Idx) 1) : Cert.Spec.sHH.Idx) := by
    intro k; funext a; apply Fin.ext
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have hd : ((cfg0.win 2).blk t).view.emb (ix2 p (0 : Fin 1))
      = (ix2 ((((cfg0.win 3).blk t).view.emb (ix2 p q) : Cert.Spec.sNH.Idx) 0) (0 : Fin 1) : Cert.Spec.sN1.Idx) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  exact mmScale_at (V c (Pipeline.arrRef spec0 0)) (V c (Pipeline.arrRef spec0 1)) (V c (Pipeline.arrRef spec0 2))
    (((cfg0.win 3).blk t).view.emb (ix2 p q)) (fun k => ((cfg0.win 0).blk t).view.emb (ix2 p k))
    (fun k => ((cfg0.win 1).blk t).view.emb (ix2 k q)) (((cfg0.win 2).blk t).view.emb (ix2 p (0 : Fin 1))) hx hw hd

/-- An index of the array is in point `t`'s block iff each coordinate is in the block's range on its axis. -/
theorem mm_mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Every row of the array is in some point's block: row `r` is in the block of point `r / 5000`. -/
theorem mm_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e30, e31⟩ := mm_index_facts t
  refine ⟨t, flush0_3 t, ?_⟩
  rw [mm_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array of the region after its run: the scaled product of the arrays the region finds. -/
theorem region0_arr (c : Dev nD) :
    (dat0 (F := Ideal) V c).arrAt 3 cfg0.N
      = Cert.Spec.mmScale (V c (Pipeline.arrRef spec0 0)) (V c (Pipeline.arrRef spec0 1)) (V c (Pipeline.arrRef spec0 2)) :=
  (dat0 (F := Ideal) V c).arrAt_eq_of_cover 3 _ (fun t _ => mm_flushed V c t) mm_cover

end Cert.KernelIdeal.RegionValue

end
-- ==== Proof.Region1.lean ====
/-
  Region 1 of the graph network: one layer's activation followed by the scaled matrix product.

  The body loads a block `s` of 5000 rows of a 50000 × 64 array, the same rows `d` of a 50000 × 1 column of per-row
  scales, a bias `b` of length 64 and a 64 × 64 weight matrix `w`, and stores, at row `p` and column `q` of its block,

      (∑ k, max (s (p, k) · d (p, 0) + b k) 0 · w (k, q)) · d (p, 0)

  (the zero is the zero word of the 32-bit format).  First that value is read at an index over plain vectors
  (`pay_apply`), and restated for blocks that are rows of whole arrays (`pay_rows`): it is `Cert.Spec.actMm` of the
  whole arrays at the corresponding row.  Then, for this region: the ten grid points' blocks are rows
  `5000 t … 5000 t + 4999` of the row-blocked arrays and all of the bias and of the weights (`index1`, `blk1_*`);
  what point `t` writes back is block `t` of `Cert.Spec.actMm` of the four arrays (`flushed1`); the ten blocks tile
  the output array (`cover1`); so the output array ends holding `Cert.Spec.actMm` of the four arrays as the region
  finds them (`region1_arr`).
-/
import proofs.«143078_j85452669321994_2_alg».proof.Proof.Gen.KernelIdeal.Frame
import proofs.«143078_j85452669321994_2_alg».proof.Proof.Spec
import proofs.«143078_j85452669321994_2_alg».proof.Proof.LibPlainDot
import proofs.«143078_j85452669321994_2_alg».proof.Proof.LibKeepdims
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## The product's dimension numbers are plain

The kernel's `tpu.matmul` contracts the left operand's second axis against the right operand's first and has no
batch axis: the left operand is read along the output's row, the right one along the output's column. -/

theorem dot_lhs0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem dot_lhs1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q

theorem dot_rhs0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q

theorem dot_rhs1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## A bias row read at an index -/

/-- A length-`b` vector cast to a `[1, b]` row and broadcast along the rows to `[n, b]` reads, at `(p, j)`, the
    vector at `j`. -/
theorem broadcastTo_row_apply {α : Type} {n b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![n, b]⟩)
    (p : Fin n) (j : Fin b) :
    broadcastTo ⟨2, ![n, b]⟩ (shapeCast ⟨2, ![1, b]⟩ v h₁) h₂ (ix2 p j) = v (ix1 j) := by
  refine (broadcastTo_apply _ h₂ (ix2 p j) (ix2 (0 : Fin 1) j) fun ax => ?_).trans ?_
  · match ax with
    | ⟨0, _⟩ => rfl
    | ⟨1, _⟩ =>
      show j.val = if b = 1 then 0 else j.val
      split
      · have := j.isLt; omega
      · rfl
  · refine shapeCast_apply v h₁ (ix2 (0 : Fin 1) j) (ix1 j) ?_
    rw [Shape.rowMajor_val_one, Shape.rowMajor_val_two]
    show j.val = 0 * b + j.val
    omega

/-! ## The body's payload at an index -/

/-- The value the body stores, at row `p` and column `q` of its block: the row of the first operand scaled by the
    row's entry of the column `d`, the bias added, clamped below at the zero word, multiplied into column `q` of the
    weights, the sum scaled by the row's entry of the column `d'`. -/
theorem pay_apply (s : Vec Ideal S5000x64 .f32) (d : Vec Ideal S5000x1 .f32) (b : Vec Ideal S64 .f32)
    (w : Vec Ideal S64x64 .f32) (d' : Vec Ideal S5000x1 .f32) (p : Fin 5000) (q : Fin 64) :
    k1_pay1 (F := Ideal) s d b w d' (ix2 p q)
      = (∑ k : Fin 64, max (s (ix2 p k) * d (ix2 p (0 : Fin 1)) + b (ix1 k)) (Ideal.ofBits .f32 0x00000000#32) * w (ix2 k q))
          * d' (ix2 p (0 : Fin 1)) := by
  unfold k1_pay1
  rw [mulf_apply]
  refine congrArg₂ (fun a b : EReal => a * b) ?_ ?_
  · refine (Cert.Lib.PlainDot.matmul_zero_apply dot_S5000x64_S64x64_S5000x64_1_0_0_1_n_n rfl rfl dot_lhs0 dot_lhs1 dot_rhs0 dot_rhs1
      none _ _ (ix2 p q)).trans ?_
    refine Finset.sum_congr rfl fun k _ => ?_
    refine congrArg₂ (fun a b : EReal => a * b) ?_ rfl
    show max (shapeCast S5000x64 s _ (ix2 p k) * broadcastTo S5000x64 (shapeCast S5000x1 d _) _ (ix2 p k)
        + broadcastTo S5000x64 (shapeCast S1x64 b _) _ (ix2 p k)) (Ideal.ofBits .f32 0x00000000#32) = _
    rw [shapeCast_self, shapeCast_self, Keepdims.broadcastTo_a1_ab_apply, broadcastTo_row_apply]
  · exact (Keepdims.broadcastTo_a1_ab_apply _ _ p q).trans (congrFun (shapeCast_self d' _) _)

/-! ## A block of rows

When the blocks the body loads are rows of whole arrays `S`, `D` (row `p` of the block is row `r` of the array) and
all of `B`, `W`, the value it stores at `(p, q)` is `Cert.Spec.actMm S D B W` at `(r, q)`. -/

theorem pay_rows (S : Cert.Spec.sNH.Idx → EReal) (D : Cert.Spec.sN1.Idx → EReal) (B : Cert.Spec.sH.Idx → EReal)
    (W : Cert.Spec.sHH.Idx → EReal)
    (s : Vec Ideal S5000x64 .f32) (d : Vec Ideal S5000x1 .f32) (b : Vec Ideal S64 .f32) (w : Vec Ideal S64x64 .f32)
    (r : Fin 50000) (p : Fin 5000) (q : Fin 64)
    (hs : ∀ k : Fin 64, s (ix2 p k) = S (ix2 r k))
    (hd : d (ix2 p (0 : Fin 1)) = D (ix2 r (0 : Fin 1)))
    (hb : ∀ k : Fin 64, b (ix1 k) = B (ix1 k))
    (hw : ∀ k : Fin 64, w (ix2 k q) = W (ix2 k q)) :
    k1_pay1 (F := Ideal) s d b w d (ix2 p q) = Cert.Spec.actMm S D B W (ix2 r q) := by
  rw [pay_apply]
  simp only [hs, hd, hb, hw]
  rfl

/-! ## Region 1: from the blocks to the array -/

section Region1

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The index maps over the grid: at point `t` the row-blocked windows are at block `(t, 0)`, the whole-array
    windows at block `0`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the first operand's block at point `t` is row `5000 t + p` of its array. -/
theorem blk1_0_apply (c : Dev nD) (t : Fin cfg1.N) (p : Fin 5000) (k : Fin 64) (r : Fin 50000)
    (hr : r.val = 5000 * t.val + p.val) :
    (iblk1 V c 0 t : Vec Ideal S5000x64 .f32) (ix2 p k)
      = (V c (Pipeline.arrRef spec1 0) : Cert.Spec.sNH.Idx → EReal) (ix2 r k) := by
  obtain ⟨e0, e1, -⟩ := index1 t
  unfold iblk1
  rw [View.read_apply]
  refine congrArg (V c (Pipeline.arrRef spec1 0) : Cert.Spec.sNH.Idx → EReal) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row `p` of the scale column's block at point `t` is row `5000 t + p` of the column. -/
theorem blk1_1_apply (c : Dev nD) (t : Fin cfg1.N) (p : Fin 5000) (r : Fin 50000)
    (hr : r.val = 5000 * t.val + p.val) :
    (iblk1 V c 1 t : Vec Ideal S5000x1 .f32) (ix2 p (0 : Fin 1))
      = (V c (Pipeline.arrRef spec1 1) : Cert.Spec.sN1.Idx → EReal) (ix2 r (0 : Fin 1)) := by
  obtain ⟨-, -, e0, e1, -⟩ := index1 t
  unfold iblk1
  rw [View.read_apply]
  refine congrArg (V c (Pipeline.arrRef spec1 1) : Cert.Spec.sN1.Idx → EReal) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias window's block is the whole bias at every point. -/
theorem blk1_2_apply (c : Dev nD) (t : Fin cfg1.N) (k : Fin 64) :
    (iblk1 V c 2 t : Vec Ideal S64 .f32) (ix1 k)
      = (V c (Pipeline.arrRef spec1 2) : Cert.Spec.sH.Idx → EReal) (ix1 k) := by
  obtain ⟨-, -, -, -, e0, -⟩ := index1 t
  unfold iblk1
  rw [View.read_apply]
  refine congrArg (V c (Pipeline.arrRef spec1 2) : Cert.Spec.sH.Idx → EReal) (funext fun a => Fin.ext ?_)
  match a with
  | ⟨0, _⟩ => show win1_2.index t (0 : Fin 1) * 64 + 1 * k.val = k.val; omega

/-- The weight window's block is the whole weight matrix at every point. -/
theorem blk1_3_apply (c : Dev nD) (t : Fin cfg1.N) (k q : Fin 64) :
    (iblk1 V c 3 t : Vec Ideal S64x64 .f32) (ix2 k q)
      = (V c (Pipeline.arrRef spec1 3) : Cert.Spec.sHH.Idx → EReal) (ix2 k q) := by
  obtain ⟨-, -, -, -, -, e0, e1, -⟩ := index1 t
  unfold iblk1
  rw [View.read_apply]
  refine congrArg (V c (Pipeline.arrRef spec1 3) : Cert.Spec.sHH.Idx → EReal) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- Row `p` of the output's block at point `t` lies at row `5000 t + p` of the output array. -/
theorem blk1_4_emb (t : Fin cfg1.N) (p : Fin 5000) (q : Fin 64) (r : Fin 50000)
    (hr : r.val = 5000 * t.val + p.val) :
    ((cfg1.win 4).blk t).view.emb (ix2 p q) = (ix2 r q : S50000x64.Idx) := by
  obtain ⟨-, -, -, -, -, -, -, e0, e1⟩ := index1 t
  funext a
  apply Fin.ext
  match a with
  | ⟨0, _⟩ => show win1_4.index t (0 : Fin 2) * 5000 + 1 * p.val = r.val; omega
  | ⟨1, _⟩ => show win1_4.index t (1 : Fin 2) * 64 + 1 * q.val = q.val; omega

/-- What point `t` writes back is block `t` of `Cert.Spec.actMm` of the four arrays as the region finds them. -/
theorem flushed1 (c : Dev nD) (t : Fin cfg1.N) :
    (dat1 V c).flushed 4 t = ((cfg1.win 4).blk t).view.read (Elt Ideal)
      (Cert.Spec.actMm (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zero_off2]
  simp only [View.ld_unit_zero (S := S5000x64) zero_off2, View.ld_unit_zero (S := S5000x1) zero_off2,
    View.ld_unit_zero (S := S64) zero_off1, View.ld_unit_zero (S := S64x64) zero_off2]
  funext j
  obtain ⟨p, q, rfl⟩ : ∃ (p : Fin 5000) (q : Fin 64), j = ix2 p q := ⟨j 0, j 1, eq_ix2 j⟩
  have ht : t.val < 10 := lt_of_lt_of_eq t.isLt (show cfg1.N = 10 from N_1)
  rw [View.read_apply, blk1_4_emb t p q ⟨5000 * t.val + p.val, by have := p.isLt; omega⟩ rfl]
  exact pay_rows _ _ _ _ (iblk1 V c 0 t) (iblk1 V c 1 t) (iblk1 V c 2 t) (iblk1 V c 3 t) _ p q
    (fun k => blk1_0_apply V c t p k _ rfl) (blk1_1_apply V c t p _ rfl) (fun k => blk1_2_apply V c t k)
    (fun k => blk1_3_apply V c t k q)

/-- An index of the output array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v27).slice (win1_4.rect t)).set ↔ _
  rw [View.set_slice_whole, Rect.mem_set_unit]
  exact Iff.rfl

/-- The ten row blocks tile the array: row `r` is in the block of point `r / 5000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, e0, e1⟩ := index1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The output array after region 1: `Cert.Spec.actMm` of the four input arrays as the region finds them. -/
theorem region1_arr (c : Dev nD) :
    (dat1 (F := Ideal) V c).arrAt 4 cfg1.N
      = Cert.Spec.actMm (V c (Pipeline.arrRef spec1 0)) (V c (Pipeline.arrRef spec1 1)) (V c (Pipeline.arrRef spec1 2))
          (V c (Pipeline.arrRef spec1 3)) :=
  (dat1 V c).arrAt_eq_of_cover 4 _ (fun t _ => flushed1 V c t) cover1

end Region1

end Cert.KernelIdeal.RegionValue

end
-- ==== Proof.Region2.lean ====
/-
  Region 2 of the graph network: the second launch of the activation followed by the scaled matrix product.

  The body is region 1's, launched on other arrays: its payload is region 1's function of the loaded blocks
  (`pay2_eq`), so `pay_rows` of region 1 applies.  For this region's windows: the ten grid points' blocks are rows
  `5000 t … 5000 t + 4999` of the row-blocked arrays and all of the bias and of the weights (`index2`, `blk2_*`);
  what point `t` writes back is block `t` of `Cert.Spec.actMm` of the four arrays (`flushed2`); the ten blocks tile
  the output array (`cover2`); so the output array ends holding `Cert.Spec.actMm` of the four arrays as the region
  finds them (`region2_arr`).
-/
import proofs.«143078_j85452669321994_2_alg».proof.Proof.Gen.KernelIdeal.Frame
import proofs.«143078_j85452669321994_2_alg».proof.Proof.Spec
import proofs.«143078_j85452669321994_2_alg».proof.Proof.LibPlainDot
import proofs.«143078_j85452669321994_2_alg».proof.Proof.LibKeepdims
import proofs.«143078_j85452669321994_2_alg».proof.Proof.Region1
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## Region 2: from the blocks to the array -/

section Region2

variable (V : (c : Dev nD) → (b : Ref sig .tc) → Buf (Elt Ideal) ((c : Thread nD τ).loc b))

/-- The second launch's payload is the first launch's function of the loaded blocks. -/
theorem pay2_eq (s : Vec Ideal S5000x64 .f32) (d : Vec Ideal S5000x1 .f32) (b : Vec Ideal S64 .f32)
    (w : Vec Ideal S64x64 .f32) (d' : Vec Ideal S5000x1 .f32) :
    k2_pay1 (F := Ideal) s d b w d' = k1_pay1 (F := Ideal) s d b w d' := rfl

/-- The index maps over the grid: at point `t` the row-blocked windows are at block `(t, 0)`, the whole-array
    windows at block `0`. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the first operand's block at point `t` is row `5000 t + p` of its array. -/
theorem blk2_0_apply (c : Dev nD) (t : Fin cfg2.N) (p : Fin 5000) (k : Fin 64) (r : Fin 50000)
    (hr : r.val = 5000 * t.val + p.val) :
    (iblk2 V c 0 t : Vec Ideal S5000x64 .f32) (ix2 p k)
      = (V c (Pipeline.arrRef spec2 0) : Cert.Spec.sNH.Idx → EReal) (ix2 r k) := by
  obtain ⟨e0, e1, -⟩ := index2 t
  unfold iblk2
  rw [View.read_apply]
  refine congrArg (V c (Pipeline.arrRef spec2 0) : Cert.Spec.sNH.Idx → EReal) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Row `p` of the scale column's block at point `t` is row `5000 t + p` of the column. -/
theorem blk2_1_apply (c : Dev nD) (t : Fin cfg2.N) (p : Fin 5000) (r : Fin 50000)
    (hr : r.val = 5000 * t.val + p.val) :
    (iblk2 V c 1 t : Vec Ideal S5000x1 .f32) (ix2 p (0 : Fin 1))
      = (V c (Pipeline.arrRef spec2 1) : Cert.Spec.sN1.Idx → EReal) (ix2 r (0 : Fin 1)) := by
  obtain ⟨-, -, e0, e1, -⟩ := index2 t
  unfold iblk2
  rw [View.read_apply]
  refine congrArg (V c (Pipeline.arrRef spec2 1) : Cert.Spec.sN1.Idx → EReal) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias window's block is the whole bias at every point. -/
theorem blk2_2_apply (c : Dev nD) (t : Fin cfg2.N) (k : Fin 64) :
    (iblk2 V c 2 t : Vec Ideal S64 .f32) (ix1 k)
      = (V c (Pipeline.arrRef spec2 2) : Cert.Spec.sH.Idx → EReal) (ix1 k) := by
  obtain ⟨-, -, -, -, e0, -⟩ := index2 t
  unfold iblk2
  rw [View.read_apply]
  refine congrArg (V c (Pipeline.arrRef spec2 2) : Cert.Spec.sH.Idx → EReal) (funext fun a => Fin.ext ?_)
  match a with
  | ⟨0, _⟩ => show win2_2.index t (0 : Fin 1) * 64 + 1 * k.val = k.val; omega

/-- The weight window's block is the whole weight matrix at every point. -/
theorem blk2_3_apply (c : Dev nD) (t : Fin cfg2.N) (k q : Fin 64) :
    (iblk2 V c 3 t : Vec Ideal S64x64 .f32) (ix2 k q)
      = (V c (Pipeline.arrRef spec2 3) : Cert.Spec.sHH.Idx → EReal) (ix2 k q) := by
  obtain ⟨-, -, -, -, -, e0, e1, -⟩ := index2 t
  unfold iblk2
  rw [View.read_apply]
  refine congrArg (V c (Pipeline.arrRef spec2 3) : Cert.Spec.sHH.Idx → EReal) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- Row `p` of the output's block at point `t` lies at row `5000 t + p` of the output array. -/
theorem blk2_4_emb (t : Fin cfg2.N) (p : Fin 5000) (q : Fin 64) (r : Fin 50000)
    (hr : r.val = 5000 * t.val + p.val) :
    ((cfg2.win 4).blk t).view.emb (ix2 p q) = (ix2 r q : S50000x64.Idx) := by
  obtain ⟨-, -, -, -, -, -, -, e0, e1⟩ := index2 t
  funext a
  apply Fin.ext
  match a with
  | ⟨0, _⟩ => show win2_4.index t (0 : Fin 2) * 5000 + 1 * p.val = r.val; omega
  | ⟨1, _⟩ => show win2_4.index t (1 : Fin 2) * 64 + 1 * q.val = q.val; omega

/-- What point `t` writes back is block `t` of `Cert.Spec.actMm` of the four arrays as the region finds them. -/
theorem flushed2 (c : Dev nD) (t : Fin cfg2.N) :
    (dat2 V c).flushed 4 t = ((cfg2.win 4).blk t).view.read (Elt Ideal)
      (Cert.Spec.actMm (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_off2]
  simp only [View.ld_unit_zero (S := S5000x64) zero_off2, View.ld_unit_zero (S := S5000x1) zero_off2,
    View.ld_unit_zero (S := S64) zero_off1, View.ld_unit_zero (S := S64x64) zero_off2]
  rw [pay2_eq]
  funext j
  obtain ⟨p, q, rfl⟩ : ∃ (p : Fin 5000) (q : Fin 64), j = ix2 p q := ⟨j 0, j 1, eq_ix2 j⟩
  have ht : t.val < 10 := lt_of_lt_of_eq t.isLt (show cfg2.N = 10 from N_2)
  rw [View.read_apply, blk2_4_emb t p q ⟨5000 * t.val + p.val, by have := p.isLt; omega⟩ rfl]
  exact pay_rows _ _ _ _ (iblk2 V c 0 t) (iblk2 V c 1 t) (iblk2 V c 2 t) (iblk2 V c 3 t) _ p q
    (fun k => blk2_0_apply V c t p k _ rfl) (blk2_1_apply V c t p _ rfl) (fun k => blk2_2_apply V c t k)
    (fun k => blk2_3_apply V c t k q)

/-- An index of the output array is in point `t`'s block iff each coordinate is in the block's range on its axis. -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v38).slice (win2_4.rect t)).set ↔ _
  rw [View.set_slice_whole, Rect.mem_set_unit]
  exact Iff.rfl

/-- The ten row blocks tile the array: row `r` is in the block of point `r / 5000`. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, -, e0, e1⟩ := index2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- The output array after region 2: `Cert.Spec.actMm` of the four input arrays as the region finds them. -/
theorem region2_arr (c : Dev nD) :
    (dat2 (F := Ideal) V c).arrAt 4 cfg2.N
      = Cert.Spec.actMm (V c (Pipeline.arrRef spec2 0)) (V c (Pipeline.arrRef spec2 1)) (V c (Pipeline.arrRef spec2 2))
          (V c (Pipeline.arrRef spec2 3)) :=
  (dat2 V c).arrAt_eq_of_cover 4 _ (fun t _ => flushed2 V c t) cover2

end Region2

end Cert.KernelIdeal.RegionValue

end
-- ==== Proof.Region3.lean ====
/-
  The activation layer of the graph network, as one function of whole arrays.

  The layer is computed ten row blocks at a time: block `t` is rows `5000 t … 5000 t + 4999` of the 50000-row arrays, the
  bias is read whole at every block.  On a block the arithmetic is pointwise: the entry at row `p`, column `q` is scaled
  by the scale of row `p`, the bias of column `q` is added and the result is clamped below at the zero word.  Since row
  `p` of block `t` is row `5000 t + p` of the arrays, each block written back is that block of `Cert.Spec.act` of the
  arrays the layer is given; the ten blocks cover the 50000 rows, so the output array ends holding `Cert.Spec.act` of
  them.
-/
import proofs.«143078_j85452669321994_2_alg».proof.Proof.Gen.KernelIdeal.Frame
import proofs.«143078_j85452669321994_2_alg».proof.Proof.Spec
import proofs.«143078_j85452669321994_2_alg».proof.Proof.LibKeepdims
import Idealize.ShloMosaic.Lib.Pipeline.Value
import Idealize.ShloMosaic.Lib.ValueIdx
import Idealize.ShloMosaic.Lib.ValueLayout
import Idealize.ShloMosaic.PureOps.Ideal
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-- A `[1, b]` row broadcast to `[a, b]` reads, at `(p, j)`, the row at `j`. -/
theorem rowBroadcast_apply {α : Type} {a b : ℕ} (v : (⟨2, ![1, b]⟩ : Shape).Idx → α)
    (h : (⟨2, ![1, b]⟩ : Shape).Broadcasts ⟨2, ![a, b]⟩) (p : Fin a) (j : Fin b) :
    broadcastTo ⟨2, ![a, b]⟩ v h (ix2 p j) = v (ix2 (0 : Fin 1) j) := by
  refine broadcastTo_apply v h (ix2 p j) (ix2 (0 : Fin 1) j) fun ax => ?_
  match ax with
  | ⟨0, _⟩ => rfl
  | ⟨1, _⟩ =>
    show j.val = if b = 1 then 0 else j.val
    split
    · have := j.isLt; omega
    · rfl

/-- A length-`n` vector cast to a `[1, n]` row reads, at `(0, j)`, the vector at `j`. -/
theorem shapeCast_row_apply {α : Type} {n : ℕ} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) := by
  refine shapeCast_apply v h (ix2 (0 : Fin 1) j) (ix1 j) ?_
  rw [Shape.rowMajor_val_one, Shape.rowMajor_val_two]
  show j.val = 0 * n + j.val
  omega

/-- The body's arithmetic at row `p`, column `q` of a block: the entry scaled by the row's scale, plus the
    column's bias, clamped below at the zero word. -/
theorem act_block_apply (x0 : Vec Ideal S5000x64 .f32) (x1 : Vec Ideal S5000x1 .f32) (x2 : Vec Ideal S64 .f32)
    (p : Fin 5000) (q : Fin 64) :
    k3_pay1 (F := Ideal) x0 x1 x2 (ix2 p q)
      = max (x0 (ix2 p q) * x1 (ix2 p (0 : Fin 1)) + x2 (ix1 q)) (Ideal.ofBits .f32 0x00000000#32) := by
  unfold k3_pay1
  rw [maximumf_apply, addf_apply, mulf_apply, broadcast_apply, shapeCast_self, shapeCast_self,
    Keepdims.broadcastTo_a1_ab_apply, rowBroadcast_apply, shapeCast_row_apply]
  rfl

/-- The activation at an array index `i`, from the three entries it reads: the entry at `i`, the scale of `i`'s row
    and the bias of `i`'s column. -/
theorem act_at (A : Cert.Spec.sNH.Idx → EReal) (D : Cert.Spec.sN1.Idx → EReal) (B : Cert.Spec.sH.Idx → EReal)
    (i i0 : Cert.Spec.sNH.Idx) (i1 : Cert.Spec.sN1.Idx) (i2 : Cert.Spec.sH.Idx)
    (h0 : i0 = i) (h1 : i1 = ix2 (i 0) (0 : Fin 1)) (h2 : i2 = ix1 (i 1)) :
    max (A i0 * D i1 + B i2) (Ideal.ofBits .f32 0x00000000#32) = Cert.Spec.act A D B i := by
  subst h0 h1 h2; rfl

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps, decided over the grid: at point `t` the entries' and the scales' blocks are the output's
    row block `t`, the bias is the whole vector. -/
theorem act_index_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the activation of the arrays the region finds. -/
theorem act_flushed (c : Dev nD) (t : Fin cfg3.N) :
    (dat3 (F := Ideal) V c).flushed 3 t = ((cfg3.win 3).blk t).view.read (Elt Ideal)
      (Cert.Spec.act (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zeros2]
  simp only [View.ld_unit_zero (S := S5000x64) zeros2, View.ld_unit_zero (S := S5000x1) zeros2, View.ld_unit_zero (S := S64) zeros1]
  obtain ⟨e00, e01, e10, e11, e2, e30, e31⟩ := act_index_facts t
  funext j
  obtain ⟨p, q, rfl⟩ : ∃ (p : Fin 5000) (q : Fin 64), j = ix2 p q := ⟨j 0, j 1, eq_ix2 j⟩
  refine (act_block_apply (iblk3 V c 0 t) (iblk3 V c 1 t) (iblk3 V c 2 t) p q).trans ?_
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : ((cfg3.win 1).blk t).view.emb (ix2 p (0 : Fin 1))
      = (ix2 ((((cfg3.win 3).blk t).view.emb (ix2 p q) : Cert.Spec.sNH.Idx) 0) (0 : Fin 1) : Cert.Spec.sN1.Idx) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 1 + 1 * 0 = 0; omega
  have h2 : ((cfg3.win 2).blk t).view.emb (ix1 q)
      = (ix1 ((((cfg3.win 3).blk t).view.emb (ix2 p q) : Cert.Spec.sNH.Idx) 1) : Cert.Spec.sH.Idx) := by
    funext a; apply Fin.ext
    match a with
    | ⟨0, _⟩ => show win3_2.index t (0 : Fin 1) * 64 + 1 * q.val = win3_3.index t (1 : Fin 2) * 64 + 1 * q.val; omega
  exact act_at (V c (Pipeline.arrRef spec3 0)) (V c (Pipeline.arrRef spec3 1)) (V c (Pipeline.arrRef spec3 2))
    (((cfg3.win 3).blk t).view.emb (ix2 p q)) (((cfg3.win 0).blk t).view.emb (ix2 p q))
    (((cfg3.win 1).blk t).view.emb (ix2 p (0 : Fin 1))) (((cfg3.win 2).blk t).view.emb (ix1 q)) h0 h1 h2

/-- An index of the array is in point `t`'s block iff each coordinate is in the block's range on its axis. -/
theorem act_mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v49).slice (win3_3.rect t)).set ↔ _
  rw [View.set_slice_whole, Rect.mem_set_unit]
  exact Iff.rfl

/-- Every row of the array is in some point's block: row `r` is in the block of point `r / 5000`. -/
theorem act_cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, e30, e31⟩ := act_index_facts t
  refine ⟨t, flush3_3 t, ?_⟩
  rw [act_mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array of the region after its run: the activation of the arrays the region finds. -/
theorem region3_arr (c : Dev nD) :
    (dat3 (F := Ideal) V c).arrAt 3 cfg3.N
      = Cert.Spec.act (V c (Pipeline.arrRef spec3 0)) (V c (Pipeline.arrRef spec3 1)) (V c (Pipeline.arrRef spec3 2)) :=
  (dat3 (F := Ideal) V c).arrAt_eq_of_cover 3 _ (fun t _ => act_flushed V c t) act_cover

end Cert.KernelIdeal.RegionValue

end
-- ==== Proof.Region4.lean ====
/-
  The last region of the kernel computes the readout head.

  The region has one grid point and every window's block is its whole array, so the body runs once on the six
  arrays as the region finds them: the per-graph feature sums (512 × 64), the per-graph node counts (a 512 × 1
  column), and the two dense layers' weights and biases.  Its payload divides each sum row by `max count 1`,
  applies the first layer with a ReLU and the second layer (both as matrix products into a zero accumulator, the
  operands narrowed first, which is the identity on the extended reals), and takes a row-wise log-softmax: the row
  maximum as a fold of `max` from `-∞`, the row sum of exponentials as a finite sum.  Each stage is identified,
  index by index, with the corresponding stage of `Cert.SpecHead.head`; the one block then covers the output array.
-/
import proofs.«143078_j85452669321994_2_alg».proof.Proof.Gen.KernelIdeal.Frame
import proofs.«143078_j85452669321994_2_alg».proof.Proof.SpecHead
import proofs.«143078_j85452669321994_2_alg».proof.Proof.LibPlainDot
import proofs.«143078_j85452669321994_2_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.SpecHead (mean hidden logits rowMax shifted logSoftmax head zeroW oneW negInfW)

/-! ## The two matrix products' dimension numbers are plain -/

theorem d1_l0 (j : S512x64.Idx) (q : dot_S512x64_S64x64_S512x64_1_0_0_1_n_n.contr.Idx) :
    (dot_S512x64_S64x64_S512x64_1_0_0_1_n_n.lhsIdx j q 0).val = (j 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem d1_l1 (j : S512x64.Idx) (q : dot_S512x64_S64x64_S512x64_1_0_0_1_n_n.contr.Idx) :
    (dot_S512x64_S64x64_S512x64_1_0_0_1_n_n.lhsIdx j q 1).val = (q ⟨0, by decide⟩).val :=
  dot_S512x64_S64x64_S512x64_1_0_0_1_n_n.lhsIdx_val_of_single rfl j q
theorem d1_r0 (j : S512x64.Idx) (q : dot_S512x64_S64x64_S512x64_1_0_0_1_n_n.contr.Idx) :
    (dot_S512x64_S64x64_S512x64_1_0_0_1_n_n.rhsIdx j q 0).val = (q ⟨0, by decide⟩).val :=
  dot_S512x64_S64x64_S512x64_1_0_0_1_n_n.rhsIdx_val_of_single rfl j q
theorem d1_r1 (j : S512x64.Idx) (q : dot_S512x64_S64x64_S512x64_1_0_0_1_n_n.contr.Idx) :
    (dot_S512x64_S64x64_S512x64_1_0_0_1_n_n.rhsIdx j q 1).val = (j 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

theorem d2_l0 (j : S512x10.Idx) (q : dot_S512x64_S64x10_S512x10_1_0_0_1_n_n.contr.Idx) :
    (dot_S512x64_S64x10_S512x10_1_0_0_1_n_n.lhsIdx j q 0).val = (j 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl
theorem d2_l1 (j : S512x10.Idx) (q : dot_S512x64_S64x10_S512x10_1_0_0_1_n_n.contr.Idx) :
    (dot_S512x64_S64x10_S512x10_1_0_0_1_n_n.lhsIdx j q 1).val = (q ⟨0, by decide⟩).val :=
  dot_S512x64_S64x10_S512x10_1_0_0_1_n_n.lhsIdx_val_of_single rfl j q
theorem d2_r0 (j : S512x10.Idx) (q : dot_S512x64_S64x10_S512x10_1_0_0_1_n_n.contr.Idx) :
    (dot_S512x64_S64x10_S512x10_1_0_0_1_n_n.rhsIdx j q 0).val = (q ⟨0, by decide⟩).val :=
  dot_S512x64_S64x10_S512x10_1_0_0_1_n_n.rhsIdx_val_of_single rfl j q
theorem d2_r1 (j : S512x10.Idx) (q : dot_S512x64_S64x10_S512x10_1_0_0_1_n_n.contr.Idx) :
    (dot_S512x64_S64x10_S512x10_1_0_0_1_n_n.rhsIdx j q 1).val = (j 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl

/-! ## The payload, stage by stage -/

theorem mean_stage (x : FVec Ideal S512x64 .f32) (c : FVec Ideal S512x1 .f32)
    (h1 : S512x64.ShapeCasts S512x64) (h2 : S512x1.ShapeCasts S512x1) (hb : S512x1.Broadcasts S512x64) :
    divf (shapeCast S512x64 x h1) (broadcastTo S512x64 (maximumf (shapeCast S512x1 c h2) (broadcast S512x1 (Scalar.ofBits (F := Ideal) .f32 0x3F800000#32))) hb)
      = mean x c := by
  funext j
  obtain ⟨p, q, rfl⟩ : ∃ (p : Fin 512) (q : Fin 64), j = ix2 p q := ⟨j 0, j 1, eq_ix2 j⟩
  rw [shapeCast_self, shapeCast_self]
  refine (divf_apply _ _ _).trans ?_
  rw [Keepdims.broadcastTo_a1_ab_apply]
  rfl

theorem hidden_stage (x : FVec Ideal S512x64 .f32) (w : FVec Ideal S64x64 .f32) (b : FVec Ideal S64 .f32)
    (hlt : FTy.bits .bf16 < FTy.bits .f32) (hc : S64.ShapeCasts S1x64) (hb : S1x64.Broadcasts S512x64) :
    maximumf (addf (matmul dot_S512x64_S64x64_S512x64_1_0_0_1_n_n none (truncf .bf16 x hlt) (truncf .bf16 w hlt) (constant S512x64 .f32 0x00000000#32))
        (broadcastTo S512x64 (shapeCast S1x64 b hc) hb)) (broadcast S512x64 (Scalar.ofBits (F := Ideal) .f32 0x00000000#32))
      = hidden x w b := by
  funext j
  obtain ⟨p, q, rfl⟩ : ∃ (p : Fin 512) (q : Fin 64), j = ix2 p q := ⟨j 0, j 1, eq_ix2 j⟩
  refine (maximumf_apply _ _ _).trans ?_
  refine congrArg₂ max ?_ rfl
  refine (addf_apply _ _ _).trans ?_
  refine congrArg₂ (fun a b : EReal => a + b) ?_ ?_
  · exact Cert.Lib.PlainDot.matmul_zero_apply dot_S512x64_S64x64_S512x64_1_0_0_1_n_n rfl rfl d1_l0 d1_l1 d1_r0 d1_r1 none _ _ (ix2 p q)
  · rw [broadcastTo_1b_ab_apply, shapeCast_a_1a_apply]

theorem logits_stage (x : FVec Ideal S512x64 .f32) (w : FVec Ideal S64x10 .f32) (b : FVec Ideal S10 .f32)
    (hlt : FTy.bits .bf16 < FTy.bits .f32) (hc : S10.ShapeCasts S1x10) (hb : S1x10.Broadcasts S512x10) :
    addf (matmul dot_S512x64_S64x10_S512x10_1_0_0_1_n_n none (truncf .bf16 x hlt) (truncf .bf16 w hlt) (constant S512x10 .f32 0x00000000#32))
        (broadcastTo S512x10 (shapeCast S1x10 b hc) hb)
      = logits x w b := by
  funext j
  obtain ⟨p, q, rfl⟩ : ∃ (p : Fin 512) (q : Fin 10), j = ix2 p q := ⟨j 0, j 1, eq_ix2 j⟩
  refine (addf_apply _ _ _).trans ?_
  refine congrArg₂ (fun a b : EReal => a + b) ?_ ?_
  · exact Cert.Lib.PlainDot.matmul_zero_apply dot_S512x64_S64x10_S512x10_1_0_0_1_n_n rfl rfl d2_l0 d2_l1 d2_r0 d2_r1 none _ _ (ix2 p q)
  · rw [broadcastTo_1b_ab_apply, shapeCast_a_1a_apply]

/-- A row index with the class coordinate inserted is the pair of the two. -/
theorem lift_row (h : S512x10.Reduces [1] S512) (p : Fin 512) (k : Fin 10) : h.lift (ix1 p) k = ix2 p k := by
  funext a
  apply Fin.ext
  match a with
  | ⟨0, _⟩ => rfl
  | ⟨1, _⟩ => rfl

theorem rowMax_stage (z : FVec Ideal S512x10 .f32) (hred : S512x10.Reduces [1] S512) (hφ : FKind.Formats .f32)
    (hacc : (0xFF800000#32 : BitVec FTy.f32.bits) = FKind.maximumf.neutral .f32 hφ) (p : Fin 512) :
    maximumf (broadcast S512 (Scalar.ofBits (F := Ideal) .f32 0xFF800000#32))
        (multiReduction .maximumf [1] S512 z 0xFF800000#32 hred hφ hacc) (ix1 p) = rowMax z p := by
  refine (maximumf_apply _ _ _).trans ?_
  refine congrArg₂ max rfl ?_
  refine (Ideal.multiReduction_maximumf_single z _ hred hφ hacc (ix1 p)).trans ?_
  show (Finset.univ : Finset (Fin 10)).fold max negInfW (z ∘ hred.lift (ix1 p)) = _
  refine congrArg (fun f => (Finset.univ : Finset (Fin 10)).fold max negInfW f) ?_
  funext k
  exact congrArg z (lift_row hred p k)

theorem shifted_stage (z : FVec Ideal S512x10 .f32) (hred : S512x10.Reduces [1] S512) (hφ : FKind.Formats .f32)
    (hacc : (0xFF800000#32 : BitVec FTy.f32.bits) = FKind.maximumf.neutral .f32 hφ)
    (hc : S512.ShapeCasts S512x1) (hb : S512x1.Broadcasts S512x10) (p : Fin 512) (q : Fin 10) :
    subf z (broadcastTo S512x10 (shapeCast S512x1 (maximumf (broadcast S512 (Scalar.ofBits (F := Ideal) .f32 0xFF800000#32))
        (multiReduction .maximumf [1] S512 z 0xFF800000#32 hred hφ hacc)) hc) hb) (ix2 p q) = shifted z p q := by
  refine (subf_apply _ _ _).trans ?_
  refine congrArg₂ (fun a b : EReal => a - b) rfl ?_
  refine (Keepdims.broadcastTo_a1_ab_apply _ hb p q).trans ?_
  refine (Keepdims.shapeCast_a_a1_apply _ hc p).trans ?_
  exact rowMax_stage z hred hφ hacc p

theorem softmax_stage (z : FVec Ideal S512x10 .f32) (hred : S512x10.Reduces [1] S512) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : S512.ShapeCasts S512x1) (hb : S512x1.Broadcasts S512x10) :
    subf (subf z (broadcastTo S512x10 (shapeCast S512x1 (maximumf (broadcast S512 (Scalar.ofBits (F := Ideal) .f32 0xFF800000#32))
          (multiReduction .maximumf [1] S512 z 0xFF800000#32 hred hφ haccM)) hc) hb))
      (broadcastTo S512x10 (log (shapeCast S512x1 (multiReduction .add [1] S512
          (exp (subf z (broadcastTo S512x10 (shapeCast S512x1 (maximumf (broadcast S512 (Scalar.ofBits (F := Ideal) .f32 0xFF800000#32))
            (multiReduction .maximumf [1] S512 z 0xFF800000#32 hred hφ haccM)) hc) hb)))
          0x00000000#32 hred hφ haccA) hc)) hb)
      = logSoftmax z := by
  funext j
  obtain ⟨p, q, rfl⟩ : ∃ (p : Fin 512) (q : Fin 10), j = ix2 p q := ⟨j 0, j 1, eq_ix2 j⟩
  refine (subf_apply _ _ _).trans ?_
  refine congrArg₂ (fun a b : EReal => a - b) (shifted_stage z hred hφ haccM hc hb p q) ?_
  refine (Keepdims.broadcastTo_a1_ab_apply _ hb p q).trans ?_
  refine congrArg Ideal.log ?_
  refine (Keepdims.shapeCast_a_a1_apply _ hc p).trans ?_
  refine (Ideal.multiReduction_add_single _ _ hred hφ haccA (ix1 p)).trans ?_
  refine Finset.sum_congr rfl fun k _ => ?_
  refine congrArg Ideal.exp ?_
  refine (congrArg _ (lift_row hred p k)).trans ?_
  exact shifted_stage z hred hφ haccM hc hb p k

/-- The body's payload is the head of its six loaded blocks. -/
theorem pay_eq (v0 : Vec Ideal S512x64 .f32) (v2 : Vec Ideal S512x1 .f32) (v9 : Vec Ideal S64x64 .f32)
    (v12 : Vec Ideal S64 .f32) (v19 : Vec Ideal S64x10 .f32) (v22 : Vec Ideal S10 .f32) :
    k4_pay1 (F := Ideal) v0 v2 v9 v12 v19 v22 = head v0 v2 v9 v12 v19 v22 := by
  unfold k4_pay1 head
  refine (softmax_stage _ _ _ _ _ _ _).trans (congrArg logSoftmax ?_)
  refine (logits_stage _ _ _ _ _ _).trans (congrArg (fun h => logits h v19 v22) ?_)
  refine (hidden_stage _ _ _ _ _ _).trans (congrArg (fun g => hidden g v9 v12) ?_)
  exact mean_stage _ _ _ _ _

/-! ## From the one block to the array -/

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- At the grid's one point every window's block index is zero on every axis. -/
theorem off0 : (fun a => win4_0.index t4_0 a * main_v52.ty.shape.size a) = fun _ => 0 := funext fun a => by fin_cases a <;> decide
theorem off1 : (fun a => win4_1.index t4_0 a * main_v57.ty.shape.size a) = fun _ => 0 := funext fun a => by fin_cases a <;> decide
theorem off2 : (fun a => win4_2.index t4_0 a * main_arg9.ty.shape.size a) = fun _ => 0 := funext fun a => by fin_cases a <;> decide
theorem off3 : (fun a => win4_3.index t4_0 a * main_arg10.ty.shape.size a) = fun _ => 0 := funext fun a => by fin_cases a; decide
theorem off4 : (fun a => win4_4.index t4_0 a * main_arg11.ty.shape.size a) = fun _ => 0 := funext fun a => by fin_cases a <;> decide
theorem off5 : (fun a => win4_5.index t4_0 a * main_arg12.ty.shape.size a) = fun _ => 0 := funext fun a => by fin_cases a; decide
theorem off6 : (fun a => win4_6.index t4_0 a * main_v58.ty.shape.size a) = fun _ => 0 := funext fun a => by fin_cases a <;> decide

/-- So each input window's block is its whole array. -/
theorem iblk_0 (c : Dev nD) : iblk4 (F := Ideal) V c 0 t4_0 = V c (Pipeline.arrRef spec4 0) := by
  unfold iblk4
  exact Memref.read_access_unit_zero (Elt Ideal) main_v52 off0 (fun a => by rw [congrFun off0 a]; simp) _
theorem iblk_1 (c : Dev nD) : iblk4 (F := Ideal) V c 1 t4_0 = V c (Pipeline.arrRef spec4 1) := by
  unfold iblk4
  exact Memref.read_access_unit_zero (Elt Ideal) main_v57 off1 (fun a => by rw [congrFun off1 a]; simp) _
theorem iblk_2 (c : Dev nD) : iblk4 (F := Ideal) V c 2 t4_0 = V c (Pipeline.arrRef spec4 2) := by
  unfold iblk4
  exact Memref.read_access_unit_zero (Elt Ideal) main_arg9 off2 (fun a => by rw [congrFun off2 a]; simp) _
theorem iblk_3 (c : Dev nD) : iblk4 (F := Ideal) V c 3 t4_0 = V c (Pipeline.arrRef spec4 3) := by
  unfold iblk4
  exact Memref.read_access_unit_zero (Elt Ideal) main_arg10 off3 (fun a => by rw [congrFun off3 a]; simp) _
theorem iblk_4 (c : Dev nD) : iblk4 (F := Ideal) V c 4 t4_0 = V c (Pipeline.arrRef spec4 4) := by
  unfold iblk4
  exact Memref.read_access_unit_zero (Elt Ideal) main_arg11 off4 (fun a => by rw [congrFun off4 a]; simp) _
theorem iblk_5 (c : Dev nD) : iblk4 (F := Ideal) V c 5 t4_0 = V c (Pipeline.arrRef spec4 5) := by
  unfold iblk4
  exact Memref.read_access_unit_zero (Elt Ideal) main_arg12 off5 (fun a => by rw [congrFun off5 a]; simp) _

/-- What the one point writes back is the head of the six arrays as the region finds them, read through the output
    window's block, which is the whole array. -/
theorem flushed_eq (c : Dev nD) (t : Fin cfg4.N) :
    (dat4 (F := Ideal) V c).flushed 6 t = ((cfg4.win 6).blk t).view.read (Elt Ideal)
      (head (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  obtain rfl : t = t4_0 := fin_N4 t
  show (cfg4.win 6).cut (grid4.coords t4_0) ((dat4 V c).after 6 t4_0) = _
  rw [after4_6]
  unfold out4_6
  rw [View.canon_unit_zero hz2]
  simp only [View.ld_unit_zero (S := S512x64) hz2, View.ld_unit_zero (S := S512x1) hz2, View.ld_unit_zero (S := S64x64) hz2,
    View.ld_unit_zero (S := S64) hz1, View.ld_unit_zero (S := S64x10) hz2, View.ld_unit_zero (S := S10) hz1]
  rw [pay_eq, iblk_0, iblk_1, iblk_2, iblk_3, iblk_4, iblk_5]
  exact (Memref.read_access_unit_zero (Elt Ideal) main_v58 off6 (fun a => by rw [congrFun off6 a]; simp) _).symm

/-- The output array after the region is the head of the six arrays the region finds. -/
theorem region4_arr (c : Dev nD) :
    (dat4 (F := Ideal) V c).arrAt 6 cfg4.N = head (V c (Pipeline.arrRef spec4 0)) (V c (Pipeline.arrRef spec4 1))
      (V c (Pipeline.arrRef spec4 2)) (V c (Pipeline.arrRef spec4 3)) (V c (Pipeline.arrRef spec4 4)) (V c (Pipeline.arrRef spec4 5)) :=
  (dat4 V c).arrAt_eq_of_cover 6 _ (fun t _ => flushed_eq V c t) fun i =>
    ⟨t4_0, flush4_6 t4_0, by
      show i ∈ ((View.whole main_v58).slice (win4_6.rect t4_0)).set
      rw [View.set_slice_whole, Rect.mem_set_unit]
      intro a
      have h0 : (i 0 : Nat) < 512 := (i 0).isLt
      have h1 : (i 1 : Nat) < 10 := (i 1).isLt
      match a with
      | ⟨0, _⟩ => show win4_6.index t4_0 0 * win4_6.size 0 ≤ (i 0 : Nat) ∧ (i 0 : Nat) < win4_6.index t4_0 0 * win4_6.size 0 + win4_6.xsize (grid4.coords t4_0) 0
                  rw [show win4_6.index t4_0 0 * win4_6.size 0 = 0 from by decide +kernel, show win4_6.xsize (grid4.coords t4_0) 0 = 512 from by decide +kernel]; omega
      | ⟨1, _⟩ => show win4_6.index t4_0 1 * win4_6.size 1 ≤ (i 1 : Nat) ∧ (i 1 : Nat) < win4_6.index t4_0 1 * win4_6.size 1 + win4_6.xsize (grid4.coords t4_0) 1
                  rw [show win4_6.index t4_0 1 * win4_6.size 1 = 0 from by decide +kernel, show win4_6.xsize (grid4.coords t4_0) 1 = 10 from by decide +kernel]; omega⟩

end Cert.KernelIdeal.RegionValue

end
-- ==== Proof.LibScatterRows.lean ====
/-
  Scatters that take one index per update, read at an operand index.

  Two shapes of `stablehlo.scatter` dimension numbers: a length-`N` vector of updates scattered into a length-`K`
  operand (`vecDims`), and `N` rows of width `D` scattered into a `K × D` operand (`rowDims`), in both cases the
  indices an `[N, 1]` array of signed words, one per update (row). Update `n` lands at operand position (row) `t`
  exactly when its index word, read signed, is `t`, and is dropped when that is outside the operand
  (`vec_resultIdx?_eq_some`, `row_resultIdx?_eq_some`). An integer scatter with an adding body is, at each operand
  index, the operand's word plus the sum of the update words landing there (`scatter_addi_apply`: the fold over the
  updates is that sum, word addition being commutative and associative), and at the extended reals the float
  scatter-add is the same with real sums (`scatterAdd_vec_apply`, `scatterAdd_row_apply`).
-/
import Idealize.ShloMosaic.PureOps.Contract
import Idealize.ShloMosaic.PureOps.Ideal
import Idealize.ShloMosaic.Lib.ValueIdx
import Mathlib.Algebra.BigOperators.Group.Finset.Basic
import Mathlib.Algebra.BigOperators.Fin
import Mathlib.Data.BitVec

open Idealize.ShloMosaic Idealize.ShloMosaic.ValueIdx

namespace Cert.Lib.ScatterRows

/-- Scatter of a length-`N` vector of updates into a length-`K` operand, one index per update. -/
abbrev vecDims (K N : ℕ) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

theorem vec_start {K N w : ℕ} (wf) (j : (⟨1, ![N]⟩ : Shape).Idx) (idx : IVec ⟨2, ![N, 1]⟩ w) (a : Fin 1) :
    (vecDims K N wf).start j idx a = (idx (ix2 (j 0) 0)).toInt := by
  obtain rfl : a = 0 := Subsingleton.elim _ _
  unfold ScatterDims.start
  rw [dif_pos (show (0 : Fin 1) ∈ (vecDims K N wf).scatterDimsToOperandDims from List.mem_singleton.mpr rfl)]
  congr 2
  funext b
  refine Fin.ext ?_
  match b with
  | ⟨0, _⟩ => rfl
  | ⟨1, _⟩ => rfl

theorem vec_window {K N : ℕ} (wf) (j : (⟨1, ![N]⟩ : Shape).Idx) (a : Fin 1) :
    (vecDims K N wf).window j a = 0 := by
  obtain rfl : a = 0 := Subsingleton.elim _ _
  unfold ScatterDims.window
  rw [dif_neg]
  simp [ScatterDims.sKept, Shape.kept]

theorem vec_resultIdx?_eq_some {K N w : ℕ} (wf) (j : (⟨1, ![N]⟩ : Shape).Idx) (idx : IVec ⟨2, ![N, 1]⟩ w)
    (i : (⟨1, ![K]⟩ : Shape).Idx) :
    (vecDims K N wf).resultIdx? j idx = some i ↔ (idx (ix2 (j 0) 0)).toInt = ((i 0).val : ℤ) := by
  unfold ScatterDims.resultIdx?
  simp only [vec_start, vec_window]
  have hi : ((i 0).val : ℤ) < K := by
    have := (i 0).isLt
    simp at this
    exact_mod_cast this
  constructor
  · intro h
    split at h
    · rename_i hc
      have h1 := Option.some.inj h
      have h0 := congrArg (fun f => (f 0).val) h1
      simp only at h0
      have := (hc 0).1
      omega
    · cases h
  · intro h
    rw [dif_pos]
    · congr 1
      funext a
      obtain rfl : a = 0 := Subsingleton.elim _ _
      refine Fin.ext ?_
      simp [h]
    · intro a
      obtain rfl : a = 0 := Subsingleton.elim _ _
      simp [h]
      exact_mod_cast hi

/-- Scatter of `N` rows of width `D` into a `K × D` operand, one row index per update row. -/
abbrev rowDims (K D N : ℕ) (wf : ScatterDims.WF ⟨2, ![K, D]⟩ ⟨2, ![N, 1]⟩ ⟨2, ![N, D]⟩ [1] [0] [0] 1) :
    ScatterDims ⟨2, ![K, D]⟩ ⟨2, ![N, 1]⟩ ⟨2, ![N, D]⟩ where
  updateWindowDims := [1]
  insertedWindowDims := [0]
  scatterDimsToOperandDims := [0]
  indexVectorDim := 1
  wf := wf

theorem row_start0 {K D N w : ℕ} (wf) (j : (⟨2, ![N, D]⟩ : Shape).Idx) (idx : IVec ⟨2, ![N, 1]⟩ w) :
    (rowDims K D N wf).start j idx 0 = (idx (ix2 (j 0) 0)).toInt := by
  unfold ScatterDims.start
  rw [dif_pos (show (0 : Fin 2) ∈ (rowDims K D N wf).scatterDimsToOperandDims from List.mem_singleton.mpr rfl)]
  congr 2
  funext b
  refine Fin.ext ?_
  match b with
  | ⟨0, _⟩ => rfl
  | ⟨1, _⟩ => rfl

theorem row_start1 {K D N w : ℕ} (wf) (j : (⟨2, ![N, D]⟩ : Shape).Idx) (idx : IVec ⟨2, ![N, 1]⟩ w) :
    (rowDims K D N wf).start j idx 1 = 0 := by
  unfold ScatterDims.start
  rw [dif_neg]
  simp

theorem row_window0 {K D N : ℕ} (wf) (j : (⟨2, ![N, D]⟩ : Shape).Idx) :
    (rowDims K D N wf).window j 0 = 0 := by
  unfold ScatterDims.window
  rw [dif_neg]
  simp [ScatterDims.sKept, Shape.kept]

theorem row_window1 {K D N : ℕ} (wf) (j : (⟨2, ![N, D]⟩ : Shape).Idx) :
    (rowDims K D N wf).window j 1 = (j 1).val := by
  unfold ScatterDims.window
  rw [dif_pos (by simp [ScatterDims.sKept, Shape.kept])]
  first
  | rfl
  | simp [ScatterDims.sKept, Shape.kept, List.finRange]

theorem row_resultIdx?_eq_some {K D N w : ℕ} (wf) (j : (⟨2, ![N, D]⟩ : Shape).Idx) (idx : IVec ⟨2, ![N, 1]⟩ w)
    (i : (⟨2, ![K, D]⟩ : Shape).Idx) :
    (rowDims K D N wf).resultIdx? j idx = some i ↔
      (idx (ix2 (j 0) 0)).toInt = ((i 0).val : ℤ) ∧ (j 1).val = (i 1).val := by
  unfold ScatterDims.resultIdx?
  have hi0 : ((i 0).val : ℤ) < K := by
    have := (i 0).isLt
    simp at this
    exact_mod_cast this
  have hj1 : (j 1).val < D := by
    have := (j 1).isLt
    simpa using this
  constructor
  · intro h
    split at h
    · rename_i hc
      have h1 := Option.some.inj h
      have h00 := congrArg (fun f => (f 0).val) h1
      have h01 := congrArg (fun f => (f 1).val) h1
      simp only [row_start0, row_start1, row_window0, row_window1] at h00 h01
      have := (hc 0).1
      simp only [row_start0, row_window0] at this
      constructor
      · omega
      · omega
    · cases h
  · rintro ⟨h0, h1⟩
    rw [dif_pos]
    · congr 1
      funext a
      refine Fin.ext ?_
      match a with
      | ⟨0, _⟩ =>
        show ((rowDims K D N wf).start j idx 0 + ((rowDims K D N wf).window j 0 : ℤ)).toNat = (i 0).val
        rw [row_start0, row_window0, h0]
        simp
      | ⟨1, _⟩ =>
        show ((rowDims K D N wf).start j idx 1 + ((rowDims K D N wf).window j 1 : ℤ)).toNat = (i 1).val
        rw [row_start1, row_window1, ← h1]
        simp
    · intro a
      match a with
      | ⟨0, _⟩ =>
        show 0 ≤ (rowDims K D N wf).start j idx 0 + ((rowDims K D N wf).window j 0 : ℤ) ∧
          (rowDims K D N wf).start j idx 0 + ((rowDims K D N wf).window j 0 : ℤ) < ((⟨2, ![K, D]⟩ : Shape).size 0 : ℤ)
        rw [row_start0, row_window0, h0]
        simp
        exact_mod_cast hi0
      | ⟨1, _⟩ =>
        show 0 ≤ (rowDims K D N wf).start j idx 1 + ((rowDims K D N wf).window j 1 : ℤ) ∧
          (rowDims K D N wf).start j idx 1 + ((rowDims K D N wf).window j 1 : ℤ) < ((⟨2, ![K, D]⟩ : Shape).size 1 : ℤ)
        rw [row_start1, row_window1]
        simp
        exact_mod_cast hj1

/-- An integer scatter with an adding body, read at an operand index: the operand's word plus the sum of the
    update words that land there (the fold over the updates in row-major order is that sum, word addition being
    commutative). -/
theorem scatter_addi_apply {s si u : Shape} {w : ℕ} (d : ScatterDims s si u) (x : IVec s 32) (idx : IVec si w)
    (upd : IVec u 32) (i : s.Idx) :
    Host.scatter d IntOp.addi x idx upd i
      = x i + ∑ j : u.Idx, if d.resultIdx? j idx = some i then upd j else 0 := by
  unfold Host.scatter
  have key : ∀ (l : List (Fin u.numel)) (x : IVec s 32),
      l.foldl (fun r n => match d.resultIdx? (u.rowMajor.symm n) idx with
        | some i => fun i' => if i' = i then IntOp.addi (r i) (upd (u.rowMajor.symm n)) else r i'
        | none => r) x i
      = x i + (l.map (fun n => if d.resultIdx? (u.rowMajor.symm n) idx = some i then upd (u.rowMajor.symm n) else 0)).sum := by
    intro l
    induction l with
    | nil => intro x; simp
    | cons n l ih =>
      intro x
      rw [List.foldl_cons, ih, List.map_cons, List.sum_cons, ← add_assoc]
      congr 1
      cases hr : d.resultIdx? (u.rowMajor.symm n) idx with
      | none => simp
      | some i0 =>
        by_cases hii : i = i0
        · subst hii
          simp [IntOp.addi]
        · have hne : ¬ (some i0 = some i) := fun h => hii (Option.some.inj h).symm
          simp [hii, hne]
  refine (key (List.finRange u.numel) x).trans ?_
  rw [← Fin.sum_univ_def]
  congr 1
  exact Equiv.sum_comp u.rowMajor.symm (fun j => if d.resultIdx? j idx = some i then upd j else 0)

/-- The float scatter-add of a vector of updates at the extended reals: the operand's entry plus the sum of the
    updates whose index word, read signed, is this position. -/
theorem scatterAdd_vec_apply {K N w : ℕ} (wf) (x : (⟨1, ![K]⟩ : Shape).Idx → EReal) (idx : IVec ⟨2, ![N, 1]⟩ w)
    (upd : (⟨1, ![N]⟩ : Shape).Idx → EReal) (i : (⟨1, ![K]⟩ : Shape).Idx) :
    Ideal.hostScatterAdd (vecDims K N wf) x idx upd i
      = x i + ∑ j : (⟨1, ![N]⟩ : Shape).Idx, if (idx (ix2 (j 0) 0)).toInt = ((i 0).val : ℤ) then upd j else 0 := by
  unfold Ideal.hostScatterAdd
  rw [Finset.sum_filter]
  simp only [vec_resultIdx?_eq_some]

/-- The float scatter-add of rows at the extended reals: the operand's entry at `(t, f)` plus the sum over the update
    rows whose index word, read signed, is `t`, of their entry in column `f`. -/
theorem scatterAdd_row_apply {K D N w : ℕ} (wf) (x : (⟨2, ![K, D]⟩ : Shape).Idx → EReal) (idx : IVec ⟨2, ![N, 1]⟩ w)
    (upd : (⟨2, ![N, D]⟩ : Shape).Idx → EReal) (i : (⟨2, ![K, D]⟩ : Shape).Idx) :
    Ideal.hostScatterAdd (rowDims K D N wf) x idx upd i
      = x i + ∑ j : (⟨2, ![N, D]⟩ : Shape).Idx,
          if (idx (ix2 (j 0) 0)).toInt = ((i 0).val : ℤ) ∧ (j 1).val = (i 1).val then upd j else 0 := by
  unfold Ideal.hostScatterAdd
  rw [Finset.sum_filter]
  simp only [row_resultIdx?_eq_some]

end Cert.Lib.ScatterRows
-- ==== Proof.LibGatherRows.lean ====
/-
  `stablehlo.gather` of whole rows, one start index per row, read at a result index.

  Two shapes of gather dimension numbers over an `[E, 1]` array of start indices, one signed word per result row:
  a length-`N` vector gathered into a length-`E` vector (`vecG`), and the rows of an `N × D` array gathered into
  an `E × D` array (`rowG`). Result row `e` is the operand's row `rowOf idx e`: the start index word `idx[e, 0]`
  read as a signed integer and clamped into `[0, N − 1]`, as StableHLO's gather clamps every start index
  (`gather_vec_apply`, `gather_row_apply`).
-/
import Idealize.ShloMosaic.PureOps.Ideal
import Idealize.ShloMosaic.Lib.ValueIdx

open Idealize.ShloMosaic Idealize.ShloMosaic.ValueIdx

namespace Cert.Lib.GatherRows

variable {α : Type}

/-- Gather of single entries of a length-`N` vector, one start index per result entry. -/
abbrev vecG (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of whole rows of an `N × D` array, one start index per result row. -/
abbrev rowG (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The operand row read for result row `e`: the start index word read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- The vector gather read at `e`: the operand at the clamped start index of `e`. -/
theorem gather_vec_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecG N E wf) x idx (ix1 e) = x (ix1 (rowOf hN idx e)) := by
  unfold Host.gather
  congr 1
  funext a
  obtain rfl : a = 0 := Subsingleton.elim _ _
  refine Fin.ext ?_
  show (vecG N E wf).start (ix1 e) idx 0 + (vecG N E wf).batchCoord (ix1 e) 0 + (vecG N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecG N E wf).startIndexMap from List.mem_singleton.mpr rfl)]
  have hsi : (vecG N E wf).siIdx (ix1 e) ⟨List.idxOf (0 : Fin 1) (vecG N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row gather read at `(e, c)`: the operand at the clamped start row of `e`, column `c`. -/
theorem gather_row_apply {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowG N D E wf) x idx (ix2 e c) = x (ix2 (rowOf hN idx e) c) := by
  unfold Host.gather
  congr 1
  funext a
  refine Fin.ext ?_
  match a with
  | ⟨0, _⟩ =>
    show (rowG N D E wf).start (ix2 e c) idx 0 + (rowG N D E wf).batchCoord (ix2 e c) 0
      + (rowG N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowG N D E wf).startIndexMap from List.mem_singleton.mpr rfl)]
    have hsi : (rowG N D E wf).siIdx (ix2 e c) ⟨List.idxOf (0 : Fin 2) (rowG N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowG N D E wf).start (ix2 e c) idx 1 + (rowG N D E wf).batchCoord (ix2 e c) 1
      + (rowG N D E wf).offCoord (ix2 e c) 1 = c.val
    rw [GatherDims.batchCoord_eq_zero _ _ _ List.not_mem_nil]
    have hstart : (rowG N D E wf).start (ix2 e c) idx 1 = 0 := by
      unfold GatherDims.start
      rw [dif_neg]
      simp
    rw [hstart]
    simp only [Nat.add_zero, Nat.zero_add]
    unfold GatherDims.offCoord
    rw [dif_pos (by simp [GatherDims.sKept, Shape.kept])]
    first
    | rfl
    | simp [GatherDims.sKept, Shape.kept, List.finRange]

end Cert.Lib.GatherRows
-- ==== Proof.LibLayerLaw.lean ====
/-
  A non-negative real factor attached to the scatter key moves out of the scatter sum.

  On the extended reals `(a + b) * x = a * x + b * x` holds for a real `x ≥ 0` whatever `a` and `b` are, so a
  finite sum of products by such an `x` is the sum times `x` (`sum_mul_real`). A graph layer gathers the rows of
  `H` at the source keys, scales row `e` by `dv[src e] * dv[dst e]` and scatter-adds the rows at the destination
  keys. The update rows that land at row `t` all have destination `t`, so they share the factor `dv[t]`, which is a
  non-negative real: the scatter is the scatter of the rows of `H` scaled by their own `dv` entry, times `dv[t]`
  (`scatter_gather_scale`).
-/
import proofs.«143078_j85452669321994_2_alg».proof.Proof.LibScatterRows
import proofs.«143078_j85452669321994_2_alg».proof.Proof.LibGatherRows
import Mathlib.Data.EReal.Operations

open Idealize.ShloMosaic Idealize.ShloMosaic.ValueIdx

namespace Cert.Lib.LayerLaw

/-- A finite sum of products by a non-negative real is the sum times that real, whatever the other factors are. -/
theorem sum_mul_real {ι : Type} (S : Finset ι) (f : ι → EReal) (x : ℝ) (hx : 0 ≤ x) :
    ∑ j ∈ S, f j * (x : EReal) = (∑ j ∈ S, f j) * (x : EReal) := by
  classical
  induction S using Finset.induction_on with
  | empty => simp
  | insert a S ha ih =>
    rw [Finset.sum_insert ha, Finset.sum_insert ha, ih]
    exact (EReal.right_distrib_of_nonneg_of_ne_top (EReal.coe_nonneg.mpr hx) (EReal.coe_ne_top x) _ _).symm

/-- Scatter-add, at the destination keys, of the gathered rows of `H` scaled by `dv[src] * dv[dst]`: the
    scatter-add of the gathered rows of `H` each scaled by its own `dv` entry, times the `dv` entry of the row read.
    `hdst`: a destination key that is in range is read as itself by the clamping gather. -/
theorem scatter_gather_scale {N D E : ℕ} (hN : 0 < N)
    (wfS : ScatterDims.WF ⟨2, ![N, D]⟩ ⟨2, ![E, 1]⟩ ⟨2, ![E, D]⟩ [1] [0] [0] 1)
    (wfG2 : GatherDims.WF ⟨2, ![N, D]⟩ ⟨2, ![E, 1]⟩ ⟨2, ![E, D]⟩ [1] [0] [] [0] [] 1 ![1, D])
    (wfG1 : GatherDims.WF ⟨1, ![N]⟩ ⟨2, ![E, 1]⟩ ⟨1, ![E]⟩ [] [0] [] [0] [] 1 ![1])
    (H : (⟨2, ![N, D]⟩ : Shape).Idx → EReal) (dv : (⟨1, ![N]⟩ : Shape).Idx → EReal)
    (hdv : ∀ r, ∃ x : ℝ, 0 ≤ x ∧ dv r = (x : EReal))
    (srcW dstW dstI : IVec ⟨2, ![E, 1]⟩ 32)
    (hdst : ∀ (e : Fin E) (j : Fin N), (dstI (ix2 e (0 : Fin 1))).toInt = (j.val : ℤ) →
      GatherRows.rowOf hN dstW e = j)
    (i : (⟨2, ![N, D]⟩ : Shape).Idx) :
    Ideal.hostScatterAdd (ScatterRows.rowDims N D E wfS) (fun _ => (0 : EReal)) dstI
        (fun u => Host.gather (GatherRows.rowG N D E wfG2) H srcW u
          * (Host.gather (GatherRows.vecG N E wfG1) dv srcW (ix1 (u 0))
            * Host.gather (GatherRows.vecG N E wfG1) dv dstW (ix1 (u 0)))) i
      = Ideal.hostScatterAdd (ScatterRows.rowDims N D E wfS) (fun _ => (0 : EReal)) dstI
          (Host.gather (GatherRows.rowG N D E wfG2) (fun r => H r * dv (ix1 (r 0))) srcW) i
        * dv (ix1 (i 0)) := by
  rw [ScatterRows.scatterAdd_row_apply, ScatterRows.scatterAdd_row_apply]
  obtain ⟨x, hx, hxe⟩ := hdv (ix1 (i 0))
  rw [zero_add, zero_add, ← Finset.sum_filter, ← Finset.sum_filter, hxe, ← sum_mul_real _ _ x hx]
  refine Finset.sum_congr rfl fun u hu => ?_
  have hc := (Finset.mem_filter.mp hu).2
  obtain ⟨e, c, rfl⟩ : ∃ (e : Fin E) (c : Fin D), u = ix2 e c := ⟨u 0, u 1, eq_ix2 u⟩
  have hrow : GatherRows.rowOf hN dstW e = i 0 := hdst e (i 0) hc.1
  show Host.gather (GatherRows.rowG N D E wfG2) H srcW (ix2 e c)
        * (Host.gather (GatherRows.vecG N E wfG1) dv srcW (ix1 e)
          * Host.gather (GatherRows.vecG N E wfG1) dv dstW (ix1 e))
      = Host.gather (GatherRows.rowG N D E wfG2) (fun r => H r * dv (ix1 (r 0))) srcW (ix2 e c) * (x : EReal)
  rw [GatherRows.gather_row_apply hN, GatherRows.gather_vec_apply hN, GatherRows.gather_vec_apply hN,
    GatherRows.gather_row_apply hN, hrow, hxe]
  exact (mul_assoc _ _ _).symm

end Cert.Lib.LayerLaw
-- ==== Proof.LibDegree.lean ====
/-
  The inverse square root of a count is a non-negative real.

  A degree is the float zero plus a sum of float ones over a finite set: the extended real that is the set's
  cardinality, a non-negative real (`count_real`). For a non-negative real `deg`, the guarded inverse square root
  "`deg > 0` ? `1 / √deg` : `0`" is again a non-negative real: `(√deg)⁻¹` when `deg` is positive, `0` when it is
  zero (`dinv_real`); the guard is what keeps the value off `⊤ = 1 / √0`.
-/
import Idealize.ShloMosaic.PureOps.Ideal
import Idealize.ShloMosaic.PureOps.Ideal.Laws
import Idealize.ShloMosaic.Lib.ValueIdx

open Idealize.ShloMosaic Idealize.ShloMosaic.ValueIdx

namespace Cert.Lib.Degree

/-- The float word of `1.0`, at the extended reals. -/
noncomputable abbrev one : EReal := Ideal.ofBits .f32 0x3F800000#32
/-- The float word of `0.0`, at the extended reals. -/
noncomputable abbrev zero : EReal := Ideal.ofBits .f32 0x00000000#32

/-- The word `0x3F800000` denotes the real `1`. -/
theorem one_eq : one = 1 := by
  simp [Ideal.ofBits, Ideal.ieee, -EReal.coe_mul]
  norm_num

/-- The word `0x00000000` denotes the real `0`. -/
theorem zero_eq : zero = 0 := Ideal.ofBits_zero_f32

/-- Zero plus a one for every element of a finite set is the set's cardinality: a non-negative real. -/
theorem count_real {ι : Type} (S : Finset ι) :
    ∃ x : ℝ, 0 ≤ x ∧ zero + ∑ _j ∈ S, one = (x : EReal) := by
  refine ⟨(S.card : ℝ), Nat.cast_nonneg _, ?_⟩
  rw [zero_eq, one_eq, zero_add]
  simp

/-- The guarded inverse square root of a non-negative real is a non-negative real. -/
theorem dinv_real (deg : EReal) (h : ∃ x : ℝ, 0 ≤ x ∧ deg = (x : EReal)) :
    ∃ y : ℝ, 0 ≤ y ∧ Scalar.select (Ideal.cmp .ogt deg zero) (Ideal.rsqrt deg) zero = (y : EReal) := by
  obtain ⟨x, hx, rfl⟩ := h
  rcases hx.eq_or_lt with h0 | hpos
  · subst h0
    refine ⟨0, le_refl _, ?_⟩
    have hc : Ideal.cmp .ogt ((0 : ℝ) : EReal) zero = 0#1 := by
      simp [Ideal.cmp, zero_eq]
    rw [hc, select_zero, zero_eq]
    rfl
  · refine ⟨(Real.sqrt x)⁻¹, inv_nonneg.mpr (Real.sqrt_nonneg x), ?_⟩
    have hc : Ideal.cmp .ogt (x : EReal) zero = 1#1 := by
      simp [Ideal.cmp, zero_eq, hpos]
    rw [hc, select_one, Ideal.rsqrt_coe, if_neg (not_lt.mpr hpos.le), if_neg hpos.ne']

end Cert.Lib.Degree
-- ==== Proof.RefLayer.lean ====
/-
  One layer of the reference graph network, read as a function on the extended reals.

  The edge list gives the source and destination words of the 1250000 messages (the edges, then the self loops).  A
  layer multiplies the node features by the weights, gathers the product's rows at the messages' sources, scales
  message `e` by `dinv[src e] * dinv[dst e]`, scatter-adds the rows at the destinations, adds the bias and clamps at
  zero.  Every message landing at node `t` has destination `t`, and `dinv[t]` is a non-negative real, so the factor
  `dinv[dst e]` moves out of the scatter sum (`Cert.Lib.LayerLaw.scatter_gather_scale`): the layer is the activation
  `Cert.Spec.act`, with the scales as a column, of one round of message passing of the scaled product
  `Cert.Spec.mmScale` (`ref_layer`).  The scales themselves — the guarded inverse square roots of the degrees, which
  are counts — are non-negative reals (`dinvV_real`).
-/
import proofs.«143078_j85452669321994_2_alg».proof.ReferenceIdeal
import proofs.«143078_j85452669321994_2_alg».proof.Proof.Spec
import proofs.«143078_j85452669321994_2_alg».proof.Proof.LibScatterRows
import proofs.«143078_j85452669321994_2_alg».proof.Proof.LibGatherRows
import proofs.«143078_j85452669321994_2_alg».proof.Proof.LibLayerLaw
import proofs.«143078_j85452669321994_2_alg».proof.Proof.LibDegree
import proofs.«143078_j85452669321994_2_alg».proof.Proof.LibPlainDot
import proofs.«143078_j85452669321994_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Idealize.ShloMosaic Idealize.ShloMosaic.ValueIdx
open Cert.Lib

variable [Facts₀]
open Facts₀

variable {F : FTy → Type} [FloatOps F]

/-- The messages' source words: row 0 of the edge list, then the self loops. -/
def srcV (a1 : IVec S2x1200000 32) : IVec S1250000 32 :=
  concatenate S1250000 0 [⟨S1200000, shapeCast S1200000 (extractStridedSlice S1x1200000 ![0, 0] a1 slices_S2x1200000_S1x1200000_0_0) shapeCasts_S1x1200000_S1200000⟩,
    ⟨S50000, iotaInDim S50000 32 0⟩] concatenates_S1200000_S50000_S1250000_d0

/-- The messages' destination words: row 1 of the edge list, then the self loops. -/
def dstV (a1 : IVec S2x1200000 32) : IVec S1250000 32 :=
  concatenate S1250000 0 [⟨S1200000, shapeCast S1200000 (extractStridedSlice S1x1200000 ![1, 0] a1 slices_S2x1200000_S1x1200000_1_0) shapeCasts_S1x1200000_S1200000⟩,
    ⟨S50000, iotaInDim S50000 32 0⟩] concatenates_S1200000_S50000_S1250000_d0

/-- Index words as a gather reads them: a negative word has 50000 added; kept as a 1250000 × 1 column. -/
def wrapI (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 50000#32))) v)

/-- Index words as a scatter reads them: as they are, as a 1250000 × 1 column. -/
def keyI (v : IVec S1250000 32) : IVec S1250000x1 32 :=
  broadcastInDim S1250000x1 ![0] bcast_S1250000_S1250000x1_0 v

/-- The degree: the count of messages per destination. -/
def degV (a1 : IVec S2x1200000 32) : FVec F S50000 .f32 :=
  Host.scatterAdd scatter_S50000_S1250000x1_S1250000_n_0_0_1
    (broadcastInDim S50000 ![] bcast_S_S50000 (constant S_ .f32 0x00000000#32))
    (keyI (dstV a1))
    (broadcastInDim S1250000 ![] bcast_S_S1250000 (constant S_ .f32 0x3F800000#32))

/-- The scale of a node: the inverse square root of its degree where positive, else zero. -/
def dinvV (a1 : IVec S2x1200000 32) : FVec F S50000 .f32 :=
  select (cmpf .ogt (degV (F := F) a1) (broadcastInDim S50000 ![] bcast_S_S50000 (constant S_ .f32 0x00000000#32)))
    (Host.rsqrt (degV (F := F) a1))
    (broadcastInDim S50000 ![] bcast_S_S50000 (constant S_ .f32 0x00000000#32))

/-- A length-50000 vector casts to a 50000 × 1 column. -/
theorem castCol : S50000.ShapeCasts S50000x1 := by decide

/-- The scales as a column. -/
def dcol (a1 : IVec S2x1200000 32) : FVec F S50000x1 .f32 :=
  shapeCast S50000x1 (dinvV (F := F) a1) castCol

/-- One round of message passing: gather the rows of `y` at the sources, scatter-add them at the destinations. -/
def spread (y : FVec F S50000x64 .f32) (sv dv : IVec S1250000 32) : FVec F S50000x64 .f32 :=
  Host.scatterAdd scatter_S50000x64_S1250000x1_S1250000x64_1_0_0_1
    (broadcastInDim S50000x64 ![] bcast_S_S50000x64 (constant S_ .f32 0x00000000#32))
    (keyI dv)
    (Host.gather gather_S50000x64_S1250000x1_S1250000x64_1_0_n_n_0_1_164 y (wrapI sv))

/-- The per-message coefficient: the scale at the wrapped source times the scale at the wrapped destination. -/
def normV (dinv : FVec Ideal S50000 .f32) (sv dv : IVec S1250000 32) : FVec Ideal S1250000 .f32 :=
  mulf (Host.gather gather_S50000_S1250000x1_S1250000_n_0_n_n_0_1_1 dinv (wrapI sv)) (Host.gather gather_S50000_S1250000x1_S1250000_n_0_n_n_0_1_1 dinv (wrapI dv))

/-- The layer before its activation: the product `a · W` gathered at the sources, times the coefficient broadcast
    along the columns, scatter-added at the destinations, plus the bias. -/
def convRef (a : FVec Ideal S50000x64 .f32) (W : FVec Ideal S64x64 .f32) (b : FVec Ideal S64 .f32) (dinv : FVec Ideal S50000 .f32) (sv dv : IVec S1250000 32) : FVec Ideal S50000x64 .f32 :=
  addf (Host.scatterAdd scatter_S50000x64_S1250000x1_S1250000x64_1_0_0_1 (broadcastInDim S50000x64 ![] bcast_S_S50000x64 (constant S_ .f32 0x00000000#32)) (keyI dv)
         (mulf (Host.gather gather_S50000x64_S1250000x1_S1250000x64_1_0_n_n_0_1_164 (Host.dotGeneral dot_S50000x64_S64x64_S50000x64_1_0_0_1_n_n none a W) (wrapI sv))
               (broadcastInDim S1250000x64 ![0, 1] bcast_S1250000x1_S1250000x64_0_1 (broadcastInDim S1250000x1 ![0] bcast_S1250000_S1250000x1_0 (normV dinv sv dv)))))
       (broadcastInDim S50000x64 ![0, 1] bcast_S1x64_S50000x64_0_1 (broadcastInDim S1x64 ![1] bcast_S64_S1x64_1 b))

/-- The activation: the maximum with the broadcast zero word, in this operand order. -/
def reluRef (x : FVec Ideal S50000x64 .f32) : FVec Ideal S50000x64 .f32 := maximumf x (broadcastInDim S50000x64 ![] bcast_S_S50000x64 (constant S_ .f32 0x00000000#32))

/-! ## Reading the columns and broadcasts at an index -/

/-- A vector kept as a 1250000 × 1 column reads, at `(e, 0)`, the vector at `e`. -/
theorem col_apply {α : Type} (v : S1250000.Idx → α) (e : Fin 1250000) :
    broadcastInDim S1250000x1 ![0] bcast_S1250000_S1250000x1_0 v (ix2 e (0 : Fin 1)) = v (ix1 e) := by
  refine broadcastInDim_apply _ bcast_S1250000_S1250000x1_0 v (ix2 e (0 : Fin 1)) (ix1 e) (fun a => ?_)
  match a with
  | ⟨0, _⟩ =>
    show e.val = if (1250000 : Nat) = 1 then 0 else e.val
    rw [if_neg (by decide)]

/-- A scatter key column reads the word. -/
theorem keyI_apply (v : IVec S1250000 32) (e : Fin 1250000) : keyI v (ix2 e (0 : Fin 1)) = v (ix1 e) := by
  unfold keyI
  exact col_apply v e

/-- A gather index column reads the word, with 50000 added when it is negative. -/
theorem wrapI_apply (v : IVec S1250000 32) (e : Fin 1250000) :
    wrapI v (ix2 e (0 : Fin 1))
      = Scalar.select (IntOp.cmpi .slt (v (ix1 e)) 0#32) (IntOp.addi (v (ix1 e)) 50000#32) (v (ix1 e)) := by
  unfold wrapI
  rw [col_apply]
  rfl

/-- A destination word that is a row number is read as that row by the wrapping, clamping gather. -/
theorem wrap_of_key (dv : IVec S1250000 32) (e : Fin 1250000) (j : Fin 50000)
    (h : (keyI dv (ix2 e (0 : Fin 1))).toInt = (j.val : ℤ)) :
    GatherRows.rowOf (by decide : 0 < 50000) (wrapI dv) e = j := by
  rw [keyI_apply] at h
  have hj := j.isLt
  have hnn : ¬ ((j.val : ℤ) < 0) := by omega
  have hneg : IntOp.cmpi .slt (dv (ix1 e)) 0#32 = 0#1 := by
    simp [IntOp.cmpi, BitVec.slt, h, hnn]
  refine Fin.ext ?_
  show min ((wrapI dv (ix2 e (0 : Fin 1))).toInt.toNat) (50000 - 1) = j.val
  rw [wrapI_apply, hneg, select_zero, h]
  simp
  omega

/-- The vector scatter's record is the one-index-per-update scatter of a vector. -/
theorem scatterVec_eq : scatter_S50000_S1250000x1_S1250000_n_0_0_1
    = ScatterRows.vecDims 50000 1250000 scatter_S50000_S1250000x1_S1250000_n_0_0_1_wf := rfl

/-- The broadcast zero word over the nodes, at the extended reals. -/
theorem zeroN_eq : (broadcastInDim S50000 ![] bcast_S_S50000 (constant S_ .f32 0x00000000#32) : FVec Ideal S50000 .f32)
    = fun _ => Degree.zero := rfl

/-- The broadcast one word over the messages, at the extended reals. -/
theorem oneE_eq : (broadcastInDim S1250000 ![] bcast_S_S1250000 (constant S_ .f32 0x3F800000#32) : FVec Ideal S1250000 .f32)
    = fun _ => Degree.one := rfl

/-- The guarded inverse square root of a vector, read at an index. -/
theorem dinv_apply (deg : FVec Ideal S50000 .f32) (r : S50000.Idx) :
    select (cmpf .ogt deg (broadcastInDim S50000 ![] bcast_S_S50000 (constant S_ .f32 0x00000000#32)))
        (Host.rsqrt deg) (broadcastInDim S50000 ![] bcast_S_S50000 (constant S_ .f32 0x00000000#32)) r
      = Scalar.select (Ideal.cmp .ogt (deg r) Degree.zero) (Ideal.rsqrt (deg r)) Degree.zero := rfl

/-! ## The scales are non-negative reals -/

/-- Zero plus a scatter-added one per update is a non-negative real at every position: the count of the updates
    whose index word is that position. -/
theorem count_scatter_real {N E : ℕ} (wf : ScatterDims.WF ⟨1, ![N]⟩ ⟨2, ![E, 1]⟩ ⟨1, ![E]⟩ [] [0] [0] 1)
    (idx : IVec ⟨2, ![E, 1]⟩ 32) (r : (⟨1, ![N]⟩ : Shape).Idx) :
    ∃ x : ℝ, 0 ≤ x ∧ Ideal.hostScatterAdd (ScatterRows.vecDims N E wf) (fun _ => Degree.zero) idx
      (fun _ => Degree.one) r = (x : EReal) := by
  rw [ScatterRows.scatterAdd_vec_apply, ← Finset.sum_filter]
  exact Degree.count_real _

/-- The degree vector is that scatter, whatever the index column. -/
theorem scatterOnes_eq (idx : IVec S1250000x1 32) :
    (Host.scatterAdd scatter_S50000_S1250000x1_S1250000_n_0_0_1
      (broadcastInDim S50000 ![] bcast_S_S50000 (constant S_ .f32 0x00000000#32)) idx
      (broadcastInDim S1250000 ![] bcast_S_S1250000 (constant S_ .f32 0x3F800000#32)) : FVec Ideal S50000 .f32)
    = Ideal.hostScatterAdd (ScatterRows.vecDims 50000 1250000 scatter_S50000_S1250000x1_S1250000_n_0_0_1_wf)
        (fun _ => Degree.zero) idx (fun _ => Degree.one) := rfl

/-- The degree of every node is a non-negative real. -/
theorem degV_real (a1 : IVec S2x1200000 32) (r : S50000.Idx) :
    ∃ x : ℝ, 0 ≤ x ∧ degV (F := Ideal) a1 r = (x : EReal) := by
  unfold degV
  rw [scatterOnes_eq]
  exact count_scatter_real _ _ r

/-- The scale of every node is a non-negative real. -/
theorem dinvV_real (a1 : IVec S2x1200000 32) (r : S50000.Idx) :
    ∃ x : ℝ, 0 ≤ x ∧ dinvV (F := Ideal) a1 r = (x : EReal) := by
  unfold dinvV
  rw [dinv_apply]
  exact Degree.dinv_real _ (degV_real a1 r)

/-! ## The layer -/

/-- A 1250000 × 1 column broadcast along the columns reads, at `(e, c)`, the column at `e`. -/
theorem colBcast_apply {α : Type} (v : S1250000x1.Idx → α) (e : Fin 1250000) (c : Fin 64) :
    broadcastInDim S1250000x64 ![0, 1] bcast_S1250000x1_S1250000x64_0_1 v (ix2 e c) = v (ix2 e (0 : Fin 1)) := by
  refine broadcastInDim_apply _ bcast_S1250000x1_S1250000x64_0_1 v (ix2 e c) (ix2 e (0 : Fin 1)) (fun a => ?_)
  match a with
  | ⟨0, _⟩ =>
    show e.val = if (1250000 : Nat) = 1 then 0 else e.val
    rw [if_neg (by decide)]
  | ⟨1, _⟩ =>
    show (0 : ℕ) = if (1 : Nat) = 1 then 0 else c.val
    rw [if_pos rfl]

/-- The bias broadcast along the rows reads, at `(r, c)`, the bias at `c`. -/
theorem bias_apply {α : Type} (b : S64.Idx → α) (i : S50000x64.Idx) :
    broadcastInDim S50000x64 ![0, 1] bcast_S1x64_S50000x64_0_1 (broadcastInDim S1x64 ![1] bcast_S64_S1x64_1 b) i
      = b (ix1 (i 1)) := by
  refine (broadcastInDim_apply _ bcast_S1x64_S50000x64_0_1 _ i (ix2 (0 : Fin 1) (i 1)) (fun a => ?_)).trans ?_
  · match a with
    | ⟨0, _⟩ =>
      show (0 : ℕ) = if (1 : Nat) = 1 then 0 else (i 0).val
      rw [if_pos rfl]
    | ⟨1, _⟩ =>
      show (i 1).val = if (64 : Nat) = 1 then 0 else (i 1).val
      rw [if_neg (by decide)]
  · refine broadcastInDim_apply _ bcast_S64_S1x64_1 b (ix2 (0 : Fin 1) (i 1)) (ix1 (i 1)) (fun a => ?_)
    match a with
    | ⟨0, _⟩ =>
      show (i 1).val = if (64 : Nat) = 1 then 0 else (i 1).val
      rw [if_neg (by decide)]

/-- The product `a · W` read at an index: the sum over the contracted axis. -/
theorem dot_apply (a : FVec Ideal S50000x64 .f32) (W : FVec Ideal S64x64 .f32) (r : S50000x64.Idx) :
    Host.dotGeneral dot_S50000x64_S64x64_S50000x64_1_0_0_1_n_n none a W r = ∑ k : Fin 64, a (ix2 (r 0) k) * W (ix2 k (r 1)) := by
  refine PlainDot.dotGeneral_apply dot_S50000x64_S64x64_S50000x64_1_0_0_1_n_n rfl rfl ?_ ?_ ?_ ?_ none .single a W r
  · intro j q
    unfold DotDims.lhsIdx
    rw [dif_neg (show ¬(0 : Fin S50000x64.rank) ∈ dot_S50000x64_S64x64_S50000x64_1_0_0_1_n_n.lhsBatch from List.not_mem_nil),
      dif_pos (show (0 : Fin S50000x64.rank) ∈ dot_S50000x64_S64x64_S50000x64_1_0_0_1_n_n.lhsNonContracting from List.mem_singleton.mpr rfl)]
    rfl
  · intro j q
    exact dot_S50000x64_S64x64_S50000x64_1_0_0_1_n_n.lhsIdx_val_of_single rfl j q
  · intro j q
    exact dot_S50000x64_S64x64_S50000x64_1_0_0_1_n_n.rhsIdx_val_of_single rfl j q
  · intro j q
    unfold DotDims.rhsIdx
    rw [dif_neg (show ¬(1 : Fin S64x64.rank) ∈ dot_S50000x64_S64x64_S50000x64_1_0_0_1_n_n.rhsBatch from List.not_mem_nil),
      dif_pos (show (1 : Fin S64x64.rank) ∈ dot_S50000x64_S64x64_S50000x64_1_0_0_1_n_n.rhsNonContracting from List.mem_singleton.mpr rfl)]
    rfl

/-- The row scatter's record is the one-index-per-row scatter of rows. -/
theorem scatterRow_eq : scatter_S50000x64_S1250000x1_S1250000x64_1_0_0_1 = ScatterRows.rowDims 50000 64 1250000 scatter_S50000x64_S1250000x1_S1250000x64_1_0_0_1_wf := rfl

/-- The row gather's record is the one-index-per-row gather of rows. -/
theorem gatherRow_eq : gather_S50000x64_S1250000x1_S1250000x64_1_0_n_n_0_1_164 = GatherRows.rowG 50000 64 1250000 gather_S50000x64_S1250000x1_S1250000x64_1_0_n_n_0_1_164_wf := rfl

/-- The vector gather's record is the one-index-per-entry gather of a vector. -/
theorem gatherVec_eq : gather_S50000_S1250000x1_S1250000_n_0_n_n_0_1_1 = GatherRows.vecG 50000 1250000 gather_S50000_S1250000x1_S1250000_n_0_n_n_0_1_1_wf := rfl

/-- The broadcast zero word over the node features is the extended real `0` everywhere. -/
theorem zeroNH_eq : ((broadcastInDim S50000x64 ![] bcast_S_S50000x64 (constant S_ .f32 0x00000000#32)) : FVec Ideal S50000x64 .f32) = fun _ => (0 : EReal) :=
  funext fun _ => Degree.zero_eq

/-- The host's float scatter-add, at the extended reals, is the exact one, whatever its operands. -/
theorem scatterAdd_ideal {s si u : Shape} (d : ScatterDims s si u) (x : FVec Ideal s .f32) (idx : IVec si 32)
    (upd : FVec Ideal u .f32) : Host.scatterAdd d x idx upd = Ideal.hostScatterAdd d x idx upd := rfl

/-- The activation read at an index. -/
theorem relu_apply (x : FVec Ideal S50000x64 .f32) (i : S50000x64.Idx) :
    reluRef x i = max (x i) Cert.Spec.zeroW := rfl

/-- The specification's activation read at an index. -/
theorem act_apply (s : Cert.Spec.sNH.Idx → EReal) (d : Cert.Spec.sN1.Idx → EReal) (b : Cert.Spec.sH.Idx → EReal)
    (i : Cert.Spec.sNH.Idx) :
    Cert.Spec.act s d b i = max (s i * d (ix2 (i 0) (0 : Fin 1)) + b (ix1 (i 1))) Cert.Spec.zeroW := rfl

/-- The update rows of the reference's scatter: the gathered row of `H` times the two gathered scales. -/
theorem upd_eq (H : FVec Ideal S50000x64 .f32) (dinv : FVec Ideal S50000 .f32) (sv dv : IVec S1250000 32) :
    mulf (Host.gather gather_S50000x64_S1250000x1_S1250000x64_1_0_n_n_0_1_164 H (wrapI sv)) (broadcastInDim S1250000x64 ![0, 1] bcast_S1250000x1_S1250000x64_0_1 (broadcastInDim S1250000x1 ![0] bcast_S1250000_S1250000x1_0 (normV dinv sv dv)))
      = fun u => Host.gather gather_S50000x64_S1250000x1_S1250000x64_1_0_n_n_0_1_164 H (wrapI sv) u
          * (Host.gather gather_S50000_S1250000x1_S1250000_n_0_n_n_0_1_1 dinv (wrapI sv) (ix1 (u 0)) * Host.gather gather_S50000_S1250000x1_S1250000_n_0_n_n_0_1_1 dinv (wrapI dv) (ix1 (u 0))) := by
  funext u
  obtain ⟨e, c, rfl⟩ : ∃ (e : Fin 1250000) (c : Fin 64), u = ix2 e c := ⟨u 0, u 1, eq_ix2 u⟩
  rw [mulf_apply, colBcast_apply, col_apply]
  rfl

/-- The scaled product of the specification, with the scales as a column, is the product's rows each times its
    node's scale. -/
theorem mmScale_eq (a : FVec Ideal S50000x64 .f32) (W : FVec Ideal S64x64 .f32) (dinv : FVec Ideal S50000 .f32)
    (hsc : S50000.ShapeCasts S50000x1) :
    Cert.Spec.mmScale a W (shapeCast S50000x1 dinv hsc)
      = fun r => Host.dotGeneral dot_S50000x64_S64x64_S50000x64_1_0_0_1_n_n none a W r * dinv (ix1 (r 0)) := by
  funext r
  rw [dot_apply]
  show (∑ k : Fin 64, a (ix2 (r 0) k) * W (ix2 k (r 1))) * shapeCast S50000x1 dinv hsc (ix2 (r 0) (0 : Fin 1)) = _
  rw [Keepdims.shapeCast_a_a1_apply (n := 50000) dinv hsc (r 0)]

/-- ONE LAYER of the reference: the activation, with the scales as a column, of one round of message passing of
    the scaled product. -/
theorem ref_layer (a : FVec Ideal S50000x64 .f32) (W : FVec Ideal S64x64 .f32) (b : FVec Ideal S64 .f32)
    (dinv : FVec Ideal S50000 .f32) (sv dv : IVec S1250000 32)
    (hdv : ∀ r, ∃ x : ℝ, 0 ≤ x ∧ dinv r = (x : EReal)) (hsc : S50000.ShapeCasts S50000x1) :
    reluRef (convRef a W b dinv sv dv)
      = Cert.Spec.act (spread (F := Ideal) (Cert.Spec.mmScale a W (shapeCast S50000x1 dinv hsc)) sv dv)
          (shapeCast S50000x1 dinv hsc) b := by
  funext i
  have key := LayerLaw.scatter_gather_scale (N := 50000) (D := 64) (E := 1250000) (by decide)
    scatter_S50000x64_S1250000x1_S1250000x64_1_0_0_1_wf gather_S50000x64_S1250000x1_S1250000x64_1_0_n_n_0_1_164_wf gather_S50000_S1250000x1_S1250000_n_0_n_n_0_1_1_wf
    (Host.dotGeneral dot_S50000x64_S64x64_S50000x64_1_0_0_1_n_n none a W) dinv hdv (wrapI sv) (wrapI dv) (keyI dv)
    (fun e j h => wrap_of_key dv e j h) i
  rw [relu_apply, act_apply, Keepdims.shapeCast_a_a1_apply (n := 50000) dinv hsc (i 0), mmScale_eq]
  unfold convRef spread
  rw [addf_apply, bias_apply, scatterAdd_ideal, scatterAdd_ideal, upd_eq, zeroNH_eq, scatterRow_eq, gatherRow_eq,
    gatherVec_eq, key]

end Cert.ReferenceIdeal.RefValue

end
-- ==== Proof.RefHead.lean ====
/-
  The tail of the reference program is the readout head.

  After its two scatter-adds — the per-graph sums of the node features (512 × 64) and the per-graph node counts
  (a vector of length 512) — the reference divides each sum row by `max count 1`, applies the first dense layer
  with a ReLU and the second dense layer, and takes a row-wise log-softmax: the row maximum is a reduction with
  `max` from `-∞` (a fold over the ten classes), the normaliser the logarithm of the row sum of the exponentials
  of the shifted logits (the sum starts from the zero word, which is `0`).  Each stage is identified, index by
  index, with the corresponding stage of `Cert.SpecHead.head`; the counts enter as the 512 × 1 column that holds
  them along its rows.
-/
import proofs.«143078_j85452669321994_2_alg».proof.Proof.RefRead
import proofs.«143078_j85452669321994_2_alg».proof.Proof.SpecHead
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx
open Cert.SpecHead (mean hidden logits rowMax shifted logSoftmax head zeroW oneW negInfW)

/-- A length-`n` vector placed along the rows of an `[n, 1]` column reads, at `(p, 0)`, the vector at `p`. -/
theorem broadcastInDim_a_a1_apply {α : Type} {n : ℕ} (v : (⟨1, ![n]⟩ : Shape).Idx → α)
    (h : (⟨1, ![n]⟩ : Shape).BroadcastsInDim ⟨2, ![n, 1]⟩ (![0] : Fin 1 → Fin 2)) (p : Fin n) :
    broadcastInDim ⟨2, ![n, 1]⟩ ![0] h v (ix2 p (0 : Fin 1)) = v (ix1 p) := by
  refine broadcastInDim_apply _ h v (ix2 p (0 : Fin 1)) (ix1 p) fun a => ?_
  match a with
  | ⟨0, _⟩ =>
    show p.val = if n = 1 then 0 else p.val
    split
    · have := p.isLt; omega
    · rfl

variable (x0 : (⟨S50000x64, .f32⟩ : BufTy).Contents (Elt Ideal)) (x1 : (⟨S2x1200000, .i32⟩ : BufTy).Contents (Elt Ideal))
  (x2 : (⟨S50000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x10, .f32⟩ : BufTy).Contents (Elt Ideal))
  (x12 : (⟨S10, .f32⟩ : BufTy).Contents (Elt Ideal))

/-- The per-graph means: the sums divided by `max count 1` along the rows. -/
theorem mean_ref :
    val_main_v95 (F := Ideal) x0 x1 x2 x3 x4 x5 x6 x7 x8
      = mean (val_main_v86 (F := Ideal) x0 x1 x2 x3 x4 x5 x6 x7 x8)
          (broadcastInDim S512x1 ![0] bcast_S512_S512x1_0 (val_main_v90 (F := Ideal) x2)) := by
  funext j
  obtain ⟨p, q, rfl⟩ : ∃ (p : Fin 512) (q : Fin 64), j = ix2 p q := ⟨j 0, j 1, eq_ix2 j⟩
  rw [val_main_v95_apply, val_main_v94_apply, val_main_v93_apply, val_main_v92_apply, val_main_v91_apply, val_main_cst_18_apply]
  have e : idx_main_v93 (idx_main_v94 (ix2 p q)) = ix1 p := funext fun a => Fin.ext (by match a with | ⟨0, _⟩ => rfl)
  rw [e]
  show _ = Ideal.div _ (max (broadcastInDim S512x1 ![0] bcast_S512_S512x1_0 (val_main_v90 (F := Ideal) x2) (ix2 p (0 : Fin 1))) oneW)
  rw [broadcastInDim_a_a1_apply]
  rfl

/-- The first dense layer with its ReLU. -/
theorem hidden_ref :
    val_main_v100 (F := Ideal) x0 x1 x2 x3 x4 x5 x6 x7 x8 x9 x10
      = hidden (val_main_v95 (F := Ideal) x0 x1 x2 x3 x4 x5 x6 x7 x8) x9 x10 := by
  funext j
  obtain ⟨p, q, rfl⟩ : ∃ (p : Fin 512) (q : Fin 64), j = ix2 p q := ⟨j 0, j 1, eq_ix2 j⟩
  rw [val_main_v100_apply, val_main_v99_apply, val_main_v96_apply, val_main_v98_apply, val_main_v97_apply,
    val_main_call4_v0_apply, val_main_call4_cst_apply]
  have el : ∀ k : Fin 64, lidx_main_v96 (ix2 p q) k = ix2 p k := fun k => funext fun a => Fin.ext (by match a with | ⟨0, _⟩ => rfl | ⟨1, _⟩ => rfl)
  have er : ∀ k : Fin 64, ridx_main_v96 (ix2 p q) k = ix2 k q := fun k => funext fun a => Fin.ext (by match a with | ⟨0, _⟩ => rfl | ⟨1, _⟩ => rfl)
  have eb : idx_main_v97 (idx_main_v98 (ix2 p q)) = ix1 q := funext fun a => Fin.ext (by match a with | ⟨0, _⟩ => rfl)
  simp only [el, er, eb]
  rfl

/-- The second dense layer. -/
theorem logits_ref :
    val_main_v104 (F := Ideal) x0 x1 x2 x3 x4 x5 x6 x7 x8 x9 x10 x11 x12
      = logits (val_main_v100 (F := Ideal) x0 x1 x2 x3 x4 x5 x6 x7 x8 x9 x10) x11 x12 := by
  funext j
  obtain ⟨p, q, rfl⟩ : ∃ (p : Fin 512) (q : Fin 10), j = ix2 p q := ⟨j 0, j 1, eq_ix2 j⟩
  rw [val_main_v104_apply, val_main_v101_apply, val_main_v103_apply, val_main_v102_apply]
  have el : ∀ k : Fin 64, lidx_main_v101 (ix2 p q) k = ix2 p k := fun k => funext fun a => Fin.ext (by match a with | ⟨0, _⟩ => rfl | ⟨1, _⟩ => rfl)
  have er : ∀ k : Fin 64, ridx_main_v101 (ix2 p q) k = ix2 k q := fun k => funext fun a => Fin.ext (by match a with | ⟨0, _⟩ => rfl | ⟨1, _⟩ => rfl)
  have eb : idx_main_v102 (idx_main_v103 (ix2 p q)) = ix1 q := funext fun a => Fin.ext (by match a with | ⟨0, _⟩ => rfl)
  simp only [el, er, eb]
  rfl

/-- A row index with the class coordinate inserted is the pair of the two. -/
theorem lift_row (h : S512x10.Reduces [1] S512) (p : Fin 512) (k : Fin 10) : h.lift (ix1 p) k = ix2 p k := by
  funext a
  apply Fin.ext
  match a with
  | ⟨0, _⟩ => rfl
  | ⟨1, _⟩ => rfl

theorem reduces_row : S512x10.Reduces [1] S512 := by decide

/-- The row maximum: the reduction with `max` from `-∞` along the classes, then `max` with `-∞` once more. -/
theorem rowMax_ref (p : Fin 512) :
    val_main_call5_v2 (F := Ideal) x0 x1 x2 x3 x4 x5 x6 x7 x8 x9 x10 x11 x12 (ix1 p)
      = rowMax (val_main_v104 (F := Ideal) x0 x1 x2 x3 x4 x5 x6 x7 x8 x9 x10 x11 x12) p := by
  rw [val_main_call5_v2_apply, val_main_call5_v1_apply, val_main_call5_cst_0_apply]
  unfold val_main_call5_v0
  generalize val_main_v104 (F := Ideal) x0 x1 x2 x3 x4 x5 x6 x7 x8 x9 x10 x11 x12 = z
  refine congrArg₂ max rfl ?_
  refine (Host.reduce_eq_fold_single (FloatOps.maximumf (F := Ideal) (φ := .f32)) z _ reducesTo_S512x10_S512_d1 reduces_row h_S_ (ix1 p)).trans ?_
  show (Finset.univ : Finset (Fin 10)).fold max negInfW (z ∘ reduces_row.lift (ix1 p)) = _
  refine congrArg (fun f => (Finset.univ : Finset (Fin 10)).fold max negInfW f) ?_
  funext k
  exact congrArg z (lift_row reduces_row p k)

/-- A logit shifted by its row's maximum. -/
theorem shifted_ref (p : Fin 512) (q : Fin 10) :
    val_main_call5_v5 (F := Ideal) x0 x1 x2 x3 x4 x5 x6 x7 x8 x9 x10 x11 x12 (ix2 p q)
      = shifted (val_main_v104 (F := Ideal) x0 x1 x2 x3 x4 x5 x6 x7 x8 x9 x10 x11 x12) p q := by
  rw [val_main_call5_v5_apply, val_main_call5_v4_apply, val_main_call5_v3_apply]
  have e : idx_main_call5_v3 (idx_main_call5_v4 (ix2 p q)) = ix1 p := funext fun a => Fin.ext (by match a with | ⟨0, _⟩ => rfl)
  rw [e, rowMax_ref]
  rfl

/-- The row-wise log-softmax. -/
theorem softmax_ref :
    val_main_v105 (F := Ideal) x0 x1 x2 x3 x4 x5 x6 x7 x8 x9 x10 x11 x12
      = logSoftmax (val_main_v104 (F := Ideal) x0 x1 x2 x3 x4 x5 x6 x7 x8 x9 x10 x11 x12) := by
  funext j
  obtain ⟨p, q, rfl⟩ : ∃ (p : Fin 512) (q : Fin 10), j = ix2 p q := ⟨j 0, j 1, eq_ix2 j⟩
  have e : idx_main_call5_v8 (idx_main_call5_v10 (ix2 p q)) = ix1 p := funext fun a => Fin.ext (by match a with | ⟨0, _⟩ => rfl)
  have ek : ∀ k : Fin 10, idx_main_call5_v7 (ix1 p) k = ix2 p k := fun k => funext fun a => Fin.ext (by match a with | ⟨0, _⟩ => rfl | ⟨1, _⟩ => rfl)
  rw [val_main_v105_apply, val_main_call5_v10_apply, val_main_call5_v9_apply, val_main_call5_v8_apply, e,
    val_main_call5_v7_apply, val_main_call5_cst_1_apply, Ideal.hostUnary_log_def, Ideal.subf_def, Ideal.ofBits_def,
    Ideal.ofBits_zero_f32, zero_add]
  refine congrArg₂ (fun a b : EReal => a - b) (shifted_ref x0 x1 x2 x3 x4 x5 x6 x7 x8 x9 x10 x11 x12 p q) ?_
  refine congrArg Ideal.log ?_
  refine Finset.sum_congr rfl fun k _ => ?_
  rw [ek k, val_main_call5_v6_apply, Ideal.hostUnary_exp_def, shifted_ref]

/-- The reference's result is the head of its two scatter results (the counts placed along a column) and the two
    dense layers' weights and biases. -/
theorem ref_head :
    val_main_v105 (F := Ideal) x0 x1 x2 x3 x4 x5 x6 x7 x8 x9 x10 x11 x12
      = head (val_main_v86 (F := Ideal) x0 x1 x2 x3 x4 x5 x6 x7 x8)
          (broadcastInDim S512x1 ![0] bcast_S512_S512x1_0 (val_main_v90 (F := Ideal) x2)) x9 x10 x11 x12 := by
  rw [softmax_ref, logits_ref, hidden_ref, mean_ref]
  rfl

end Cert.ReferenceIdeal.RefValue

end
-- ==== Proof.Bridge.lean ====
/-
  The two idealized programs compute one function.

  Layer by layer the reference's activation — ReLU of (the scatter-add over the messages of the product rows gathered at
  the sources times the two endpoint scales, plus the bias) — is the kernel's — ReLU of (the scatter-add of the
  source-scaled product rows, scaled at the destination, plus the bias): the destination's scale is a non-negative real
  attached to the scatter key, so it moves out of the sum.  The activations agreeing, the next layer's products agree, and
  after the third layer the pooled sums, the counts and the classifier head are the same operations of the same arrays.
-/
import proofs.«143078_j85452669321994_2_alg».proof.Proof.KernelChain
import proofs.«143078_j85452669321994_2_alg».proof.Proof.RefRead
import proofs.«143078_j85452669321994_2_alg».proof.Proof.RefLayer
import proofs.«143078_j85452669321994_2_alg».proof.Proof.RefHead

set_option maxRecDepth 16384

noncomputable section

namespace Cert.Bridge

open Idealize.ShloMosaic
open Cert.KernelIdeal (S50000x64 S2x1200000 S50000 S64x64 S64 S64x10 S10)

variable (x0 : FVec Ideal S50000x64 .f32) (x1 : IVec S2x1200000 32) (x2 : IVec S50000 32)
  (x3 : FVec Ideal S64x64 .f32) (x4 : FVec Ideal S64 .f32) (x5 : FVec Ideal S64x64 .f32) (x6 : FVec Ideal S64 .f32)
  (x7 : FVec Ideal S64x64 .f32) (x8 : FVec Ideal S64 .f32) (x9 : FVec Ideal S64x64 .f32) (x10 : FVec Ideal S64 .f32)
  (x11 : FVec Ideal S64x10 .f32) (x12 : FVec Ideal S10 .f32)

/-- One layer: the reference's activation of the features `a` is the kernel's. -/
theorem layer (a : FVec Ideal S50000x64 .f32) (w : FVec Ideal S64x64 .f32) (b : FVec Ideal S64 .f32) :
    Cert.ReferenceIdeal.RefValue.reluRef (Cert.ReferenceIdeal.RefValue.convRef a w b (Cert.ReferenceIdeal.RefValue.dinvV (F := Ideal) x1) (Cert.ReferenceIdeal.RefValue.srcV x1) (Cert.ReferenceIdeal.RefValue.dstV x1))
      = Cert.Spec.act (Cert.KernelIdeal.KValue.spread (F := Ideal) (Cert.Spec.mmScale a w (Cert.KernelIdeal.KValue.dcol (F := Ideal) x1)) (Cert.KernelIdeal.KValue.srcV x1) (Cert.KernelIdeal.KValue.dstV x1))
          (Cert.KernelIdeal.KValue.dcol (F := Ideal) x1) b :=
  Cert.ReferenceIdeal.RefValue.ref_layer a w b _ _ _ (fun r => Cert.ReferenceIdeal.RefValue.dinvV_real x1 r) Cert.ReferenceIdeal.RefValue.castCol

theorem layer1 : Cert.ReferenceIdeal.ReadP.val_main_v47 (F := Ideal) x0 x1 x3 x4
    = Cert.Spec.act (Cert.KernelIdeal.KValue.spread (F := Ideal) (Cert.Spec.mmScale x0 x3 (Cert.KernelIdeal.KValue.dcol (F := Ideal) x1)) (Cert.KernelIdeal.KValue.srcV x1) (Cert.KernelIdeal.KValue.dstV x1)) (Cert.KernelIdeal.KValue.dcol (F := Ideal) x1) x4 :=
  layer x1 x0 x3 x4

theorem layer2 : Cert.ReferenceIdeal.ReadP.val_main_v65 (F := Ideal) x0 x1 x3 x4 x5 x6
    = Cert.Spec.act (Cert.KernelIdeal.KValue.spread (F := Ideal) (Cert.Spec.mmScale (Cert.ReferenceIdeal.ReadP.val_main_v47 (F := Ideal) x0 x1 x3 x4) x5 (Cert.KernelIdeal.KValue.dcol (F := Ideal) x1)) (Cert.KernelIdeal.KValue.srcV x1) (Cert.KernelIdeal.KValue.dstV x1)) (Cert.KernelIdeal.KValue.dcol (F := Ideal) x1) x6 :=
  layer x1 (Cert.ReferenceIdeal.ReadP.val_main_v47 (F := Ideal) x0 x1 x3 x4) x5 x6

theorem layer3 : Cert.ReferenceIdeal.ReadP.val_main_v83 (F := Ideal) x0 x1 x3 x4 x5 x6 x7 x8
    = Cert.Spec.act (Cert.KernelIdeal.KValue.spread (F := Ideal) (Cert.Spec.mmScale (Cert.ReferenceIdeal.ReadP.val_main_v65 (F := Ideal) x0 x1 x3 x4 x5 x6) x7 (Cert.KernelIdeal.KValue.dcol (F := Ideal) x1)) (Cert.KernelIdeal.KValue.srcV x1) (Cert.KernelIdeal.KValue.dstV x1)) (Cert.KernelIdeal.KValue.dcol (F := Ideal) x1) x8 :=
  layer x1 (Cert.ReferenceIdeal.ReadP.val_main_v65 (F := Ideal) x0 x1 x3 x4 x5 x6) x7 x8

/-- The kernel's function of the arguments is the reference's result term. -/
theorem bridge : Cert.KernelIdeal.KValue.kernelFn x0 x1 x2 x3 x4 x5 x6 x7 x8 x9 x10 x11 x12
    = Cert.ReferenceIdeal.ReadP.val_main_v105 (F := Ideal) x0 x1 x2 x3 x4 x5 x6 x7 x8 x9 x10 x11 x12 := by
  rw [Cert.ReferenceIdeal.RefValue.ref_head]
  show _ = Cert.SpecHead.head (Cert.KernelIdeal.KValue.poolSum (F := Ideal) (Cert.ReferenceIdeal.ReadP.val_main_v83 (F := Ideal) x0 x1 x3 x4 x5 x6 x7 x8) x2) (Cert.KernelIdeal.KValue.poolCnt (F := Ideal) x2) x9 x10 x11 x12
  rw [layer3, layer2, layer1]
  rfl

end Cert.Bridge

end
-- ==== Proof.lean ====
/-
  The certificate of the three-layer graph network: the kernel (five Pallas regions among host stretches) against the
  plain reference, both read at the extended reals.

  Frames: the two kernel programs' are generated whole; the reference's is its run with the result dropped.  The
  idealization rewrote nothing, so `preserves` is `True`.  Values: the kernel's run ends with its result buffer at the last
  region's output array, which walks back through the regions and host stretches to one function of the argument arrays
  (per region: the blocks of the output array are the restrictions of a whole-array function); the reference's run ends at
  its operations' composed term; the two are equal because, layer by layer, the per-node scale of the destination — the
  inverse square root of a count, a non-negative real — moves out of the scatter-add over the messages.
-/
import proofs.«143078_j85452669321994_2_alg».proof.Defs
import proofs.«143078_j85452669321994_2_alg».proof.Proof.Gen.Kernel
import proofs.«143078_j85452669321994_2_alg».proof.Proof.Gen.Kernel.Skeleton
import proofs.«143078_j85452669321994_2_alg».proof.Proof.Gen.Kernel.Launch
import proofs.«143078_j85452669321994_2_alg».proof.Proof.Gen.Kernel.Points
import proofs.«143078_j85452669321994_2_alg».proof.Proof.Gen.Kernel.Frame
import proofs.«143078_j85452669321994_2_alg».proof.Proof.Gen.KernelIdeal
import proofs.«143078_j85452669321994_2_alg».proof.Proof.Gen.KernelIdeal.Skeleton
import proofs.«143078_j85452669321994_2_alg».proof.Proof.Gen.KernelIdeal.Launch
import proofs.«143078_j85452669321994_2_alg».proof.Proof.Gen.KernelIdeal.Points
import proofs.«143078_j85452669321994_2_alg».proof.Proof.Gen.KernelIdeal.Frame
import proofs.«143078_j85452669321994_2_alg».proof.Proof.Gen.ReferenceIdeal
import proofs.«143078_j85452669321994_2_alg».proof.Proof.Gen.Pre_finite_inputs
import proofs.«143078_j85452669321994_2_alg».proof.Proof.KernelRun
import proofs.«143078_j85452669321994_2_alg».proof.Proof.KernelChain
import proofs.«143078_j85452669321994_2_alg».proof.Proof.Region0
import proofs.«143078_j85452669321994_2_alg».proof.Proof.Region1
import proofs.«143078_j85452669321994_2_alg».proof.Proof.Region2
import proofs.«143078_j85452669321994_2_alg».proof.Proof.Region3
import proofs.«143078_j85452669321994_2_alg».proof.Proof.Region4
import proofs.«143078_j85452669321994_2_alg».proof.Proof.RefRun
import proofs.«143078_j85452669321994_2_alg».proof.Proof.RefRead
import proofs.«143078_j85452669321994_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs, run from memories agreeing on the arguments, end at the network's function of them. -/
theorem algebraic : Cert.algebraic_KernelIdeal_ReferenceIdeal := by
  intro m ρ m' ρ' _ hagree
  refine ⟨fun c => Cert.KernelIdeal.KValue.kernelFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.KValue.kernel_value m ρ c
        Cert.KernelIdeal.RegionValue.region0_arr Cert.KernelIdeal.RegionValue.region1_arr Cert.KernelIdeal.RegionValue.region2_arr
        Cert.KernelIdeal.RegionValue.region3_arr Cert.KernelIdeal.RegionValue.region4_arr), (h c).2⟩)
      (Cert.KernelIdeal.Run.run_result (F := Ideal) m ρ)
  · refine (θ_run Cert.ReferenceIdeal.defs _ _).mono (fun r h c => ⟨(h c).1.trans ?_, (h c).2⟩) (Cert.ReferenceIdeal.ValueP.run (F := Ideal) m' ρ')
    rw [Cert.ReferenceIdeal.ReadP.val_main_v105_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.bridge _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
